-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S4x2048x2048 .f32) (main_arg1 : FVec F S8192x2048 .f32) (main_arg2 : FVec F S8192x2048 .f32) (main_arg3 : FVec F S2048x8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩
abbrev S1x1 : Shape := ⟨2, ![1, 1]⟩
abbrev S1024x2048 : Shape := ⟨2, ![1024, 2048]⟩
abbrev S256x8192 : Shape := ⟨2, ![256, 8192]⟩
abbrev S8192x8192 : Shape := ⟨2, ![8192, 8192]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S512x8192 : Shape := ⟨2, ![512, 8192]⟩
abbrev S256x512 : Shape := ⟨2, ![256, 512]⟩
abbrev S256 : Shape := ⟨1, ![256]⟩
abbrev S256x1 : Shape := ⟨2, ![256, 1]⟩

abbrev nBuf : Space → Nat
  | .hbm => 41
  | .vmem => 29
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S8192x2048, .bf16⟩
  | .hbm, ⟨16, _⟩ => ⟨S8192x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x1, .f32⟩
  | .hbm, ⟨26, _⟩ => ⟨S8192x2048, .bf16⟩
  | .hbm, ⟨27, _⟩ => ⟨S2048x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x1, .f32⟩
  | .hbm, ⟨37, _⟩ => ⟨S2048x8192, .bf16⟩
  | .hbm, ⟨38, _⟩ => ⟨S8192x8192, .f32⟩
  | .hbm, ⟨39, _⟩ => ⟨S8192x2048, .f32⟩
  | .hbm, ⟨40, _⟩ => ⟨S4x2048x2048, .f32⟩
  | .local _ .vmem, ⟨0, _⟩ => ⟨S1x1, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .bf16⟩
  | .local _ .vmem, ⟨4, _⟩ => ⟨S1024x2048, .bf16⟩
  | .local _ .vmem, ⟨5, _⟩ => ⟨S1x1, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .bf16⟩
  | .local _ .vmem, ⟨9, _⟩ => ⟨S1024x2048, .bf16⟩
  | .local _ .vmem, ⟨10, _⟩ => ⟨S1x1, .f32⟩
  | .local _ .vmem, ⟨11, _⟩ => ⟨S256x8192, .f32⟩
  | .local _ .vmem, ⟨12, _⟩ => ⟨S256x8192, .f32⟩
  | .local _ .vmem, ⟨13, _⟩ => ⟨S256x8192, .bf16⟩
  | .local _ .vmem, ⟨14, _⟩ => ⟨S256x8192, .bf16⟩
  | .local _ .vmem, ⟨15, _⟩ => ⟨S512x2048, .f32⟩
  | .local _ .vmem, ⟨16, _⟩ => ⟨S512x2048, .f32⟩
  | .local _ .vmem, ⟨17, _⟩ => ⟨S1024x2048, .bf16⟩
  | .local _ .vmem, ⟨18, _⟩ => ⟨S1024x2048, .bf16⟩
  | .local _ .vmem, ⟨19, _⟩ => ⟨S1024x2048, .bf16⟩
  | .local _ .vmem, ⟨20, _⟩ => ⟨S1024x2048, .bf16⟩
  | .local _ .vmem, ⟨21, _⟩ => ⟨S512x1024, .f32⟩
  | .local _ .vmem, ⟨22, _⟩ => ⟨S512x1024, .f32⟩
  | .local _ .vmem, ⟨23, _⟩ => ⟨S256x8192, .f32⟩
  | .local _ .vmem, ⟨24, _⟩ => ⟨S256x8192, .f32⟩
  | .local _ .vmem, ⟨25, _⟩ => ⟨S512x8192, .bf16⟩
  | .local _ .vmem, ⟨26, _⟩ => ⟨S512x8192, .bf16⟩
  | .local _ .vmem, ⟨27, _⟩ => ⟨S256x512, .f32⟩
  | .local _ .vmem, ⟨28, _⟩ => ⟨S256x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_cst_5 : Ref sig .tc := ⟨.hbm, 21, rfl⟩
abbrev main_v11 : Ref sig .tc := ⟨.hbm, 22, rfl⟩
abbrev main_cst_6 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_cst_8 : Ref sig .tc := ⟨.hbm, 30, rfl⟩
abbrev main_v17 : Ref sig .tc := ⟨.hbm, 31, rfl⟩
abbrev main_cst_9 : Ref sig .tc := ⟨.hbm, 32, rfl⟩
abbrev main_v18 : Ref sig .tc := ⟨.hbm, 33, rfl⟩
abbrev main_cst_10 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x8192 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![16, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![32, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S256x8192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x8192 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S256x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  shapeCasts_S4x2048x2048_S8192x2048 : S4x2048x2048.ShapeCasts S8192x2048
  reducesTo_S8192x2048_S_d0_1 : S8192x2048.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  reducesTo_S2048x8192_S_d0_1 : S2048x8192.ReducesTo [0, 1] S_
  inb_S256x8192_S256x8192_0_0 : ∀ a, (![0, 0] : Fin 2 → Nat) a + S256x8192.size a ≤ S256x8192.size a
  h_S256x8192 : 0 < S256x8192.numel
  packedbf16_S256x8192_S256x8192_0_0 : (Rect.unit (s := S256x8192) ![0, 0] S256x8192.size inb_S256x8192_S256x8192_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S1024x2048_S1024x2048 : S1024x2048.ShapeCasts S1024x2048
  inb_S512x1024_S512x1024_0_0 : ∀ a, (![0, 0] : Fin 2 → Nat) a + S512x1024.size a ≤ S512x1024.size a
  h_S512x1024 : 0 < S512x1024.numel
  shapeCasts_S256x8192_S256x8192 : S256x8192.ShapeCasts S256x8192
  reduces_S256x8192_S256 : S256x8192.Reduces [1] S256
  shapeCasts_S256_S256x1 : S256.ShapeCasts S256x1
  broadcasts_S256x1_S256x8192 : S256x1.Broadcasts S256x8192
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S256x512_S256x512_0_0 : ∀ a, (![0, 0] : Fin 2 → Nat) a + S256x512.size a ≤ S256x512.size a
  h_S256x512 : 0 < S256x512.numel
  shapeCasts_S8192x2048_S4x2048x2048 : S8192x2048.ShapeCasts S4x2048x2048
  dot_S512x2048_S1024x2048_S512x1024_1_1_0_0_n_n_wf : DotDims.WF S512x2048 S1024x2048 S512x1024 [1] [1] [0] [0] [] []
  dot_S256x8192_S512x8192_S256x512_1_1_0_0_n_n_wf : DotDims.WF S256x8192 S512x8192 S256x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .f32 = 32 ∨ (Rect.block (s := S8192x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x2048.size a
  hwx0_2 : ∀ i : grid0.Coords, EltTy.bits .bf16 = 32 ∨ (Rect.block (s := S8192x2048) S1024x2048.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x2048.size a
  hwx1_1 : ∀ i : grid1.Coords, EltTy.bits .f32 = 32 ∨ (Rect.block (s := S8192x2048) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x2048.size a
  hwx1_2 : ∀ i : grid1.Coords, EltTy.bits .bf16 = 32 ∨ (Rect.block (s := S8192x2048) S1024x2048.size (cc1_transform_2 i) (hinb1_2 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1.size a ≤ S1x1.size a
  hwx2_0 : ∀ i : grid2.Coords, EltTy.bits .f32 = 32 ∨ (Rect.block (s := S1x1) S1x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x8192.size a ≤ S2048x8192.size a
  hwx2_1 : ∀ i : grid2.Coords, EltTy.bits .f32 = 32 ∨ (Rect.block (s := S2048x8192) S256x8192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x8192.size a ≤ S2048x8192.size a
  hwx2_2 : ∀ i : grid2.Coords, EltTy.bits .bf16 = 32 ∨ (Rect.block (s := S2048x8192) S256x8192.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S8192x2048.size a
  hwx3_0 : ∀ i : grid3.Coords, EltTy.bits .f32 = 32 ∨ (Rect.block (s := S8192x2048) S512x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S8192x2048.size a
  hwx3_1 : ∀ i : grid3.Coords, EltTy.bits .bf16 = 32 ∨ (Rect.block (s := S8192x2048) S1024x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x2048.size a ≤ S8192x2048.size a
  hwx3_2 : ∀ i : grid3.Coords, EltTy.bits .bf16 = 32 ∨ (Rect.block (s := S8192x2048) S1024x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S8192x8192.size a
  hwx3_3 : ∀ i : grid3.Coords, EltTy.bits .f32 = 32 ∨ (Rect.block (s := S8192x8192) S512x1024.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x8192.size a ≤ S8192x8192.size a
  hwx4_0 : ∀ i : grid4.Coords, EltTy.bits .f32 = 32 ∨ (Rect.block (s := S8192x8192) S256x8192.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x8192.size a ≤ S2048x8192.size a
  hwx4_1 : ∀ i : grid4.Coords, EltTy.bits .bf16 = 32 ∨ (Rect.block (s := S2048x8192) S512x8192.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x512.size a ≤ S8192x2048.size a
  hwx4_2 : ∀ i : grid4.Coords, EltTy.bits .f32 = 32 ∨ (Rect.block (s := S8192x2048) S256x512.size (cc4_transform_2 i) (hinb4_2 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S256x8192_S512x8192_S256x512_1_1_0_0_n_n : DotDims S256x8192 S512x8192 S256x512 where
  lhsContracting := [1]
  rhsContracting := [1]
  lhsNonContracting := [0]
  rhsNonContracting := [0]
  lhsBatch := []
  rhsBatch := []
  wf := dot_S256x8192_S512x8192_S256x512_1_1_0_0_n_n_wf

abbrev win0_0 : Pipeline.Window sig grid0 :=
  Pipeline.Window.ofSpec (Memref.whole main_v6) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20) S1x1.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S256x8192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v0) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S1024x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1024x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v22) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v22) S256x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S512x8192.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v23) S256x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩
abbrev S4x2048 : Shape := ⟨2, ![4, 2048]⟩
abbrev S4x2048x1 : Shape := ⟨3, ![4, 2048, 1]⟩
abbrev S4x2048x8192 : Shape := ⟨3, ![4, 2048, 8192]⟩

abbrev nBuf : Space → Nat
  | .hbm => 158
  | .vmem => 0
  | .smem => 0
  | _ => 0

abbrev hbmTy0_0 (i : Nat) : BufTy := match i % 128 with
  | 0 => ⟨S4x2048x2048, .f32⟩
  | 1 => ⟨S8192x2048, .f32⟩
  | 2 => ⟨S8192x2048, .f32⟩
  | 3 => ⟨S2048x8192, .f32⟩
  | 4 => ⟨S4x2048x2048, .f32⟩
  | 5 => ⟨S_, .f32⟩
  | 6 => ⟨S4x2048, .f32⟩
  | 7 => ⟨S4x2048x1, .f32⟩
  | 8 => ⟨S_, .f32⟩
  | 9 => ⟨S4x2048x1, .f32⟩
  | 10 => ⟨S4x2048x1, .f32⟩
  | 11 => ⟨S_, .f32⟩
  | 12 => ⟨S4x2048x1, .f32⟩
  | 13 => ⟨S4x2048x1, .f32⟩
  | 14 => ⟨S4x2048x2048, .f32⟩
  | 15 => ⟨S4x2048x2048, .f32⟩
  | 16 => ⟨S4x2048x2048, .f32⟩
  | 17 => ⟨S_, .f32⟩
  | 18 => ⟨S_, .f32⟩
  | 19 => ⟨S_, .f32⟩
  | 20 => ⟨S4x2048x2048, .f32⟩
  | 21 => ⟨S4x2048x2048, .f32⟩
  | 22 => ⟨S_, .f32⟩
  | 23 => ⟨S4x2048x2048, .f32⟩
  | 24 => ⟨S4x2048x2048, .f32⟩
  | 25 => ⟨S4x2048x2048, .f32⟩
  | 26 => ⟨S4x2048x2048, .f32⟩
  | 27 => ⟨S4x2048x2048, .f32⟩
  | 28 => ⟨S4x2048x2048, .f32⟩
  | 29 => ⟨S8192x2048, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S8192x2048, .f32⟩
  | 39 => ⟨S8192x2048, .f32⟩
  | 40 => ⟨S8192x2048, .f32⟩
  | 41 => ⟨S_, .f32⟩
  | 42 => ⟨S_, .f32⟩
  | 43 => ⟨S_, .f32⟩
  | 44 => ⟨S8192x2048, .f32⟩
  | 45 => ⟨S8192x2048, .f32⟩
  | 46 => ⟨S_, .f32⟩
  | 47 => ⟨S8192x2048, .f32⟩
  | 48 => ⟨S8192x2048, .f32⟩
  | 49 => ⟨S8192x2048, .f32⟩
  | 50 => ⟨S8192x2048, .f32⟩
  | 51 => ⟨S8192x2048, .f32⟩
  | 52 => ⟨S8192x2048, .f32⟩
  | 53 => ⟨S4x2048x8192, .f32⟩
  | 54 => ⟨S_, .f32⟩
  | 55 => ⟨S4x2048x8192, .f32⟩
  | 56 => ⟨S4x2048x8192, .f32⟩
  | 57 => ⟨S4x2048x2048, .f32⟩
  | 58 => ⟨S_, .f32⟩
  | 59 => ⟨S4x2048, .f32⟩
  | 60 => ⟨S4x2048x1, .f32⟩
  | 61 => ⟨S_, .f32⟩
  | 62 => ⟨S4x2048x1, .f32⟩
  | 63 => ⟨S4x2048x1, .f32⟩
  | 64 => ⟨S_, .f32⟩
  | 65 => ⟨S4x2048x1, .f32⟩
  | 66 => ⟨S4x2048x1, .f32⟩
  | 67 => ⟨S4x2048x2048, .f32⟩
  | 68 => ⟨S4x2048x2048, .f32⟩
  | 69 => ⟨S4x2048x2048, .f32⟩
  | 70 => ⟨S_, .f32⟩
  | 71 => ⟨S_, .f32⟩
  | 72 => ⟨S_, .f32⟩
  | 73 => ⟨S4x2048x2048, .f32⟩
  | 74 => ⟨S4x2048x2048, .f32⟩
  | 75 => ⟨S_, .f32⟩
  | 76 => ⟨S4x2048x2048, .f32⟩
  | 77 => ⟨S4x2048x2048, .f32⟩
  | 78 => ⟨S4x2048x2048, .f32⟩
  | 79 => ⟨S4x2048x2048, .f32⟩
  | 80 => ⟨S4x2048x2048, .f32⟩
  | 81 => ⟨S4x2048x2048, .f32⟩
  | 82 => ⟨S8192x2048, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S8192x2048, .f32⟩
  | 92 => ⟨S8192x2048, .f32⟩
  | 93 => ⟨S8192x2048, .f32⟩
  | 94 => ⟨S_, .f32⟩
  | 95 => ⟨S_, .f32⟩
  | 96 => ⟨S_, .f32⟩
  | 97 => ⟨S8192x2048, .f32⟩
  | 98 => ⟨S8192x2048, .f32⟩
  | 99 => ⟨S_, .f32⟩
  | 100 => ⟨S8192x2048, .f32⟩
  | 101 => ⟨S8192x2048, .f32⟩
  | 102 => ⟨S8192x2048, .f32⟩
  | 103 => ⟨S8192x2048, .f32⟩
  | 104 => ⟨S8192x2048, .f32⟩
  | 105 => ⟨S8192x2048, .f32⟩
  | 106 => ⟨S4x2048x8192, .f32⟩
  | 107 => ⟨S4x2048x8192, .f32⟩
  | 108 => ⟨S4x2048x8192, .f32⟩
  | 109 => ⟨S_, .f32⟩
  | 110 => ⟨S4x2048, .f32⟩
  | 111 => ⟨S4x2048x1, .f32⟩
  | 112 => ⟨S_, .f32⟩
  | 113 => ⟨S4x2048x1, .f32⟩
  | 114 => ⟨S4x2048x1, .f32⟩
  | 115 => ⟨S_, .f32⟩
  | 116 => ⟨S4x2048x1, .f32⟩
  | 117 => ⟨S4x2048x1, .f32⟩
  | 118 => ⟨S4x2048x8192, .f32⟩
  | 119 => ⟨S4x2048x8192, .f32⟩
  | 120 => ⟨S4x2048x8192, .f32⟩
  | 121 => ⟨S_, .f32⟩
  | 122 => ⟨S_, .f32⟩
  | 123 => ⟨S_, .f32⟩
  | 124 => ⟨S4x2048x8192, .f32⟩
  | 125 => ⟨S4x2048x8192, .f32⟩
  | 126 => ⟨S_, .f32⟩
  | 127 => ⟨S4x2048x8192, .f32⟩
  | _ => ⟨S4x2048x2048, .f32⟩

abbrev hbmTy0_1 (i : Nat) : BufTy := match i % 128 with
  | 0 => ⟨S4x2048x8192, .f32⟩
  | 1 => ⟨S4x2048x8192, .f32⟩
  | 2 => ⟨S4x2048x8192, .f32⟩
  | 3 => ⟨S4x2048x8192, .f32⟩
  | 4 => ⟨S4x2048x8192, .f32⟩
  | 5 => ⟨S2048x8192, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S2048x8192, .f32⟩
  | 15 => ⟨S2048x8192, .f32⟩
  | 16 => ⟨S2048x8192, .f32⟩
  | 17 => ⟨S_, .f32⟩
  | 18 => ⟨S_, .f32⟩
  | 19 => ⟨S_, .f32⟩
  | 20 => ⟨S2048x8192, .f32⟩
  | 21 => ⟨S2048x8192, .f32⟩
  | 22 => ⟨S_, .f32⟩
  | 23 => ⟨S2048x8192, .f32⟩
  | 24 => ⟨S2048x8192, .f32⟩
  | 25 => ⟨S2048x8192, .f32⟩
  | 26 => ⟨S2048x8192, .f32⟩
  | 27 => ⟨S2048x8192, .f32⟩
  | 28 => ⟨S2048x8192, .f32⟩
  | 29 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_cst_7 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_8 : Ref sig .tc := ⟨.hbm, 41, rfl⟩
abbrev main_cst_9 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call4_cst : Ref sig .tc := ⟨.hbm, 54, rfl⟩
abbrev main_call4_v0 : Ref sig .tc := ⟨.hbm, 55, rfl⟩
abbrev main_v29 : Ref sig .tc := ⟨.hbm, 56, rfl⟩
abbrev main_v30 : Ref sig .tc := ⟨.hbm, 57, rfl⟩
abbrev main_cst_10 : Ref sig .tc := ⟨.hbm, 58, rfl⟩
abbrev main_v31 : Ref sig .tc := ⟨.hbm, 59, rfl⟩
abbrev main_v32 : Ref sig .tc := ⟨.hbm, 60, rfl⟩
abbrev main_cst_11 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_13 : Ref sig .tc := ⟨.hbm, 70, rfl⟩
abbrev main_cst_14 : Ref sig .tc := ⟨.hbm, 71, rfl⟩
abbrev main_call6_v0 : Ref sig .tc := ⟨.hbm, 72, rfl⟩
abbrev main_call6_v1 : Ref sig .tc := ⟨.hbm, 73, rfl⟩
abbrev main_call6_v2 : Ref sig .tc := ⟨.hbm, 74, rfl⟩
abbrev main_call6_v3 : Ref sig .tc := ⟨.hbm, 75, rfl⟩
abbrev main_call6_v4 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_15 : Ref sig .tc := ⟨.hbm, 83, rfl⟩
abbrev main_v46 : Ref sig .tc := ⟨.hbm, 84, rfl⟩
abbrev main_cst_16 : Ref sig .tc := ⟨.hbm, 85, rfl⟩
abbrev main_v47 : Ref sig .tc := ⟨.hbm, 86, rfl⟩
abbrev main_cst_17 : Ref sig .tc := ⟨.hbm, 87, rfl⟩
abbrev main_v48 : Ref sig .tc := ⟨.hbm, 88, rfl⟩
abbrev main_cst_18 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_19 : Ref sig .tc := ⟨.hbm, 94, rfl⟩
abbrev main_cst_20 : Ref sig .tc := ⟨.hbm, 95, rfl⟩
abbrev main_call8_v0 : Ref sig .tc := ⟨.hbm, 96, rfl⟩
abbrev main_call8_v1 : Ref sig .tc := ⟨.hbm, 97, rfl⟩
abbrev main_call8_v2 : Ref sig .tc := ⟨.hbm, 98, rfl⟩
abbrev main_call8_v3 : Ref sig .tc := ⟨.hbm, 99, rfl⟩
abbrev main_call8_v4 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_21 : Ref sig .tc := ⟨.hbm, 109, rfl⟩
abbrev main_v61 : Ref sig .tc := ⟨.hbm, 110, rfl⟩
abbrev main_v62 : Ref sig .tc := ⟨.hbm, 111, rfl⟩
abbrev main_cst_22 : Ref sig .tc := ⟨.hbm, 112, rfl⟩
abbrev main_v63 : Ref sig .tc := ⟨.hbm, 113, rfl⟩
abbrev main_v64 : Ref sig .tc := ⟨.hbm, 114, rfl⟩
abbrev main_cst_23 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_24 : Ref sig .tc := ⟨.hbm, 121, rfl⟩
abbrev main_cst_25 : Ref sig .tc := ⟨.hbm, 122, rfl⟩
abbrev main_call10_v0 : Ref sig .tc := ⟨.hbm, 123, rfl⟩
abbrev main_call10_v1 : Ref sig .tc := ⟨.hbm, 124, rfl⟩
abbrev main_call10_v2 : Ref sig .tc := ⟨.hbm, 125, rfl⟩
abbrev main_call10_v3 : Ref sig .tc := ⟨.hbm, 126, rfl⟩
abbrev main_call10_v4 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_cst_26 : Ref sig .tc := ⟨.hbm, 134, rfl⟩
abbrev main_v76 : Ref sig .tc := ⟨.hbm, 135, rfl⟩
abbrev main_cst_27 : Ref sig .tc := ⟨.hbm, 136, rfl⟩
abbrev main_v77 : Ref sig .tc := ⟨.hbm, 137, rfl⟩
abbrev main_cst_28 : Ref sig .tc := ⟨.hbm, 138, rfl⟩
abbrev main_v78 : Ref sig .tc := ⟨.hbm, 139, rfl⟩
abbrev main_cst_29 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_30 : Ref sig .tc := ⟨.hbm, 145, rfl⟩
abbrev main_cst_31 : Ref sig .tc := ⟨.hbm, 146, rfl⟩
abbrev main_call12_v0 : Ref sig .tc := ⟨.hbm, 147, rfl⟩
abbrev main_call12_v1 : Ref sig .tc := ⟨.hbm, 148, rfl⟩
abbrev main_call12_v2 : Ref sig .tc := ⟨.hbm, 149, rfl⟩
abbrev main_call12_v3 : Ref sig .tc := ⟨.hbm, 150, rfl⟩
abbrev main_call12_v4 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S8192x2048_S_d0_1 : S8192x2048.ReducesTo [0, 1] S_
  bcast_S_S8192x2048 : S_.BroadcastsInDim S8192x2048 (![] : Fin 0 → Fin S8192x2048.rank)
  bcast_S_S4x2048x8192 : S_.BroadcastsInDim S4x2048x8192 (![] : Fin 0 → Fin S4x2048x8192.rank)
  reducesTo_S4x2048x8192_S4x2048_d2 : S4x2048x8192.ReducesTo [2] S4x2048
  bcast_S4x2048x1_S4x2048x8192_0_1_2 : S4x2048x1.BroadcastsInDim S4x2048x8192 (![0, 1, 2] : Fin 3 → Fin S4x2048x8192.rank)
  reducesTo_S2048x8192_S_d0_1 : S2048x8192.ReducesTo [0, 1] S_
  bcast_S_S2048x8192 : S_.BroadcastsInDim S2048x8192 (![] : Fin 0 → Fin S2048x8192.rank)
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.Spec.lean ====
/-
  The mathematics both programs compute, stated once over the extended reals.

  A BitNet-style gated feed-forward block.  A weight matrix is quantised to the three values
  {-1, 0, 1}/s at one scale s per matrix, s = 1 / max(mean |w|, eps).  An activation row is quantised
  to the integers -128..127 over t at one scale t per row, t = 127 / max(max_d |x d|, eps).  With
  `aq` the quantised row and `tern s` the quantised weight,

      h f   = max (Σ_d aq x d · tern sg (wg f d)) 0 · (Σ_d aq x d · tern su (wu f d))
      out k = Σ_f aq h f · tern sd (wd k f).

  Everything here is a function of ONE activation row and whole weight matrices, so an output row
  depends on its own input row only: that is what lets a row-blocked computation and a whole-array
  computation meet.  No program is imported.
-/
import Idealize.ShloMosaic.PureOps.Ideal
import Idealize.ShloMosaic.PureOps.Ideal.Laws
import Idealize.ShloMosaic.Lib.ValueIdx

noncomputable section

open scoped BigOperators

namespace Cert.BitFFN

open Idealize.ShloMosaic

/-! ## The literals, as the exact values of their f32 words -/

/-- The clamp below which a scale's denominator is not allowed to fall (the f32 nearest 1e-5). -/
def eps : EReal := Ideal.ofBits .f32 0x3727C5AC#32
def c127 : EReal := Ideal.ofBits .f32 0x42FE0000#32
def cm128 : EReal := Ideal.ofBits .f32 0xC3000000#32
def c1 : EReal := Ideal.ofBits .f32 0x3F800000#32
def cm1 : EReal := Ideal.ofBits .f32 0xBF800000#32
def c0 : EReal := Ideal.ofBits .f32 0x00000000#32
/-- The number of entries of a weight matrix, 2^24, as an f32. -/
def n24 : EReal := Ideal.ofBits .f32 0x4B800000#32
/-- The start value of a running maximum. -/
def ninf : EReal := Ideal.ofBits .f32 0xFF800000#32

/-! ## One entry -/

/-- Round to the nearest integer, ties to even; the infinities stay. -/
def rnd (v : EReal) : EReal := Ideal.liftRound Ideal.roundHalfEven v

/-- One weight at scale `s`: round `v·s`, clamp to [-1, 1], divide by `s`. -/
def tern (s v : EReal) : EReal := Ideal.div (min c1 (max cm1 (rnd (v * s)))) s

/-- One activation at scale `s`: round `v·s`, clamp to [-128, 127], divide by `s`. -/
def int8 (s v : EReal) : EReal := Ideal.div (min c127 (max cm128 (rnd (v * s)))) s

/-- A weight matrix's scale from the sum `tot` of its absolute values. -/
def wscale (tot : EReal) : EReal := Ideal.div c1 (max (Ideal.div tot n24) eps)

/-- A row's scale from the maximum `rm` of its absolute values. -/
def ascale (rm : EReal) : EReal := Ideal.div c127 (max rm eps)

/-- The straight-through form `x + (a - x)`, which is `a` whenever `x` is a real number. -/
def ste (a x : EReal) : EReal := x + (a - x)

/-! ## One row -/

/-- The maximum of the absolute values of a row, from the start value. -/
def rowmax {n : Nat} (row : Fin n → EReal) : EReal :=
  (Finset.univ : Finset (Fin n)).fold max ninf (fun d => max (row d) (-(row d)))

/-- The quantised row. -/
def aq {n : Nat} (row : Fin n → EReal) (d : Fin n) : EReal := int8 (ascale (rowmax row)) (row d)

/-- The inner product of two rows. -/
def dot {n : Nat} (a b : Fin n → EReal) : EReal := ∑ d : Fin n, a d * b d

/-- The sum of the absolute values of all entries of an array, from the start value `c0`. -/
def abssum {ι : Type} [Fintype ι] (w : ι → EReal) : EReal := c0 + ∑ i : ι, max (w i) (-(w i))

/-- The hidden row: gate (clamped below at zero) times up, both against already quantised weights. -/
def hRow {n m : Nat} (xr : Fin n → EReal) (wgq wuq : Fin m → Fin n → EReal) (f : Fin m) : EReal :=
  max (dot (aq xr) (wgq f)) c0 * dot (aq xr) (wuq f)

/-- The output row from a hidden row, against already quantised down-projection weights. -/
def oRow {m p : Nat} (hr : Fin m → EReal) (wdq : Fin p → Fin m → EReal) (k : Fin p) : EReal :=
  dot (aq hr) (wdq k)

/-- The whole block on one input row: weights `wg wu wd` at scales `sg su sd`. -/
def outRow {n m p : Nat} (sg su sd : EReal) (wg wu : Fin m → Fin n → EReal) (wd : Fin p → Fin m → EReal)
    (xr : Fin n → EReal) (k : Fin p) : EReal :=
  oRow (hRow xr (fun f d => tern sg (wg f d)) (fun f d => tern su (wu f d))) (fun k f => tern sd (wd k f)) k

/-! ## The same block in straight-through form

  Every quantised value `q` of an entry `v` enters as `v + (q - v)`. -/

/-- The hidden row in straight-through form. -/
def hRowSte {n m : Nat} (sg su : EReal) (wg wu : Fin m → Fin n → EReal) (xr : Fin n → EReal) (f : Fin m) : EReal :=
  max (dot (fun d => ste (aq xr d) (xr d)) (fun d => ste (tern sg (wg f d)) (wg f d))) c0
    * dot (fun d => ste (aq xr d) (xr d)) (fun d => ste (tern su (wu f d)) (wu f d))

/-- The whole block in straight-through form. -/
def outRowSte {n m p : Nat} (sg su sd : EReal) (wg wu : Fin m → Fin n → EReal) (wd : Fin p → Fin m → EReal)
    (xr : Fin n → EReal) (k : Fin p) : EReal :=
  dot (fun f => ste (aq (hRowSte sg su wg wu xr) f) (hRowSte sg su wg wu xr f))
    (fun f => ste (tern sd (wd k f)) (wd k f))

end Cert.BitFFN

end
-- ==== Proof.KChain.lean ====
/-
  What each region finds when it is entered, and what @main returns, read back through the fold of buffer contents.

  The three scale stretches each compute 1 / max(Σ|w| / 2^24, eps) of one weight matrix and reshape that scalar to a
  1×1 array; the first stretch also reshapes the activations [4, 2048, 2048] to [8192, 2048].  No stretch and no region
  writes a buffer it does not own, so a buffer written once is found unchanged by every later segment: the quantised
  gate and up weights reach the gate/up region, the quantised down weights and the hidden array reach the
  down-projection region, and the last reshape returns the down-projection's array as [4, 2048, 2048].
-/
import proofs.«124648_j32409823216253_1_alg».proof.Proof.Gen.KernelIdeal.Frame
import proofs.«124648_j32409823216253_1_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.KValue

open Cert.KernelIdeal Cert.KernelIdeal.Gen Cert.BitFFN
open Idealize.ShloMosaic Idealize.ShloMosaic.TcCoe Idealize.ShloMosaic.ValueIdx Idealize.SL.Sem Idealize.ShloMosaic.StableHlo

/-! ## The scale of a weight matrix, as the host computes it -/

/-- 1 / max(Σ|w| / 2^24, eps) of an [8192, 2048] matrix, as a rank-0 array. -/
def hostScaleA (w : (⟨S8192x2048, .f32⟩ : BufTy).Contents (Elt Ideal)) : (⟨S_, .f32⟩ : BufTy).Contents (Elt Ideal) :=
  Host.divf (F := Ideal) (constant (F := Ideal) S_ .f32 0x3F800000#32)
    (maximumf (F := Ideal) (Host.divf (F := Ideal) (Host.reduceAdd (F := Ideal) (Host.absf (F := Ideal) w) (constant (F := Ideal) S_ .f32 0x00000000#32) reducesTo_S8192x2048_S_d0_1 h_S_)
      (constant (F := Ideal) S_ .f32 0x4B800000#32)) (constant (F := Ideal) S_ .f32 0x3727C5AC#32))

/-- The same of a [2048, 8192] matrix. -/
def hostScaleD (w : (⟨S2048x8192, .f32⟩ : BufTy).Contents (Elt Ideal)) : (⟨S_, .f32⟩ : BufTy).Contents (Elt Ideal) :=
  Host.divf (F := Ideal) (constant (F := Ideal) S_ .f32 0x3F800000#32)
    (maximumf (F := Ideal) (Host.divf (F := Ideal) (Host.reduceAdd (F := Ideal) (Host.absf (F := Ideal) w) (constant (F := Ideal) S_ .f32 0x00000000#32) reducesTo_S2048x8192_S_d0_1 h_S_)
      (constant (F := Ideal) S_ .f32 0x4B800000#32)) (constant (F := Ideal) S_ .f32 0x3727C5AC#32))

/-- The host's total sum of absolute values is `abssum`. -/
theorem hostSumA (w : (⟨S8192x2048, .f32⟩ : BufTy).Contents (Elt Ideal)) (i : S_.Idx) :
    Host.reduceAdd (F := Ideal) (Host.absf (F := Ideal) w) (constant (F := Ideal) S_ .f32 0x00000000#32) reducesTo_S8192x2048_S_d0_1 h_S_ i = abssum w := by
  simp only [Host.reduceAdd, Ideal.hostReduceAdd_def]
  refine (Ideal.hostReduceAdd_total reducesTo_S8192x2048_S_d0_1 (fun b => b.elim0) _ _ i).trans ?_
  unfold abssum
  exact congrArg (c0 + ·) (Finset.sum_congr rfl fun j _ => rfl)

theorem hostSumD (w : (⟨S2048x8192, .f32⟩ : BufTy).Contents (Elt Ideal)) (i : S_.Idx) :
    Host.reduceAdd (F := Ideal) (Host.absf (F := Ideal) w) (constant (F := Ideal) S_ .f32 0x00000000#32) reducesTo_S2048x8192_S_d0_1 h_S_ i = abssum w := by
  simp only [Host.reduceAdd, Ideal.hostReduceAdd_def]
  refine (Ideal.hostReduceAdd_total reducesTo_S2048x8192_S_d0_1 (fun b => b.elim0) _ _ i).trans ?_
  unfold abssum
  exact congrArg (c0 + ·) (Finset.sum_congr rfl fun j _ => rfl)

theorem hostScaleA_apply (w : (⟨S8192x2048, .f32⟩ : BufTy).Contents (Elt Ideal)) (i : S_.Idx) :
    hostScaleA w i = wscale (abssum w) := by
  show Ideal.div c1 (max (Ideal.div (Host.reduceAdd (F := Ideal) (Host.absf (F := Ideal) w) (constant (F := Ideal) S_ .f32 0x00000000#32) reducesTo_S8192x2048_S_d0_1 h_S_ i) n24) eps) = _
  rw [hostSumA]; rfl

theorem hostScaleD_apply (w : (⟨S2048x8192, .f32⟩ : BufTy).Contents (Elt Ideal)) (i : S_.Idx) :
    hostScaleD w i = wscale (abssum w) := by
  show Ideal.div c1 (max (Ideal.div (Host.reduceAdd (F := Ideal) (Host.absf (F := Ideal) w) (constant (F := Ideal) S_ .f32 0x00000000#32) reducesTo_S2048x8192_S_d0_1 h_S_ i) n24) eps) = _
  rw [hostSumD]; rfl

/-- A rank-0 array reshaped to 1×1, at its one index. -/
theorem scalar_to_1x1 (x : S_.Idx → EReal) (h : S_.ShapeCasts S1x1) (i : S1x1.Idx) : shapeCast S1x1 x h i = x ix0 :=
  shapeCast_apply x h i ix0 (by
    have h0 : (i 0).val = 0 := by have : (i 0).val < 1 := (i 0).isLt; omega
    have h1 : (i 1).val = 0 := by have : (i 1).val < 1 := (i 1).isLt; omega
    have hl : (S_.rowMajor ix0).val < 1 := (S_.rowMajor ix0).isLt
    rw [Shape.rowMajor_val_two]
    show (S_.rowMajor ix0).val = (i 0).val * 1 + (i 1).val
    omega)

variable (m : (ℓ : Loc nD τ sig) → Buf (Elt Ideal) ℓ) (ρ : Dev nD → PrngReg) (c : Dev nD)

/-- A buffer that no operation of a stretch writes holds after the stretch what it held before. -/
macro "kept_through " ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.reshape_writes, Finset.mem_singleton]
  repeat' apply And.intro
  all_goals exact StableHlo.devRef_ne_of_ne (by decide)))

/-! ## Region 0's entry: the gate weights and their scale -/

theorem V1_arg1 : V1 m ρ c main_arg1 = m ((c : Thread nD τ).loc main_arg1) := by
  show StableHlo.after hostOps0 (W0 m ρ c) (Proc.devRef .tc main_arg1) = _
  refine Eq.trans (by kept_through hostOps0) rfl

theorem V1_scale : V1 m ρ c main_v6 (ix2 0 0) = wscale (abssum (m ((c : Thread nD τ).loc main_arg1))) := by
  have e : (V1 m ρ c main_v6 : S1x1.Idx → EReal) = shapeCast S1x1 (hostScaleA (m ((c : Thread nD τ).loc main_arg1))) shapeCasts_S_S1x1 := by
    show StableHlo.after hostOps0 (W0 m ρ c) (Proc.devRef .tc main_v6) = _
    after_results
    rfl
  exact (congrFun e (ix2 0 0)).trans ((scalar_to_1x1 _ _ _).trans (hostScaleA_apply _ _))

/-- The activations flattened to rows. -/
theorem V1_v0 : (V1 m ρ c main_v0 : S8192x2048.Idx → EReal) = shapeCast S8192x2048 (m ((c : Thread nD τ).loc main_arg0)) shapeCasts_S4x2048x2048_S8192x2048 := by
  show StableHlo.after hostOps0 (W0 m ρ c) (Proc.devRef .tc main_v0) = _
  after_results
  rfl

/-! ## Region 1's entry: the up weights and their scale -/

theorem W2_arg2 : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  refine Eq.trans (by kept_through hostOps0) rfl

theorem V3_arg2 : V3 m ρ c main_arg2 = m ((c : Thread nD τ).loc main_arg2) := by
  show StableHlo.after hostOps1 (W2 m ρ c) (Proc.devRef .tc main_arg2) = _
  refine Eq.trans (by kept_through hostOps1) (W2_arg2 m ρ c)

theorem V3_scale : V3 m ρ c main_v13 (ix2 0 0) = wscale (abssum (m ((c : Thread nD τ).loc main_arg2))) := by
  have e : (V3 m ρ c main_v13 : S1x1.Idx → EReal) = shapeCast S1x1 (hostScaleA (W2 m ρ c (Proc.devRef .tc main_arg2))) shapeCasts_S_S1x1 := by
    show StableHlo.after hostOps1 (W2 m ρ c) (Proc.devRef .tc main_v13) = _
    after_results
    rfl
  rw [W2_arg2] at e
  exact (congrFun e (ix2 0 0)).trans ((scalar_to_1x1 _ _ _).trans (hostScaleA_apply _ _))

/-! ## Region 2's entry: the down weights and their scale -/

theorem W4_arg3 : W4 m ρ c (Proc.devRef .tc main_arg3) = m ((c : Thread nD τ).loc main_arg3) := by
  refine (W4_of_ne m ρ c main_arg3 (by decide)).trans ?_
  show StableHlo.after hostOps1 (W2 m ρ c) (Proc.devRef .tc main_arg3) = _
  refine Eq.trans (by kept_through hostOps1) ?_
  refine (W2_of_ne m ρ c main_arg3 (by decide)).trans ?_
  show StableHlo.after hostOps0 (W0 m ρ c) (Proc.devRef .tc main_arg3) = _
  refine Eq.trans (by kept_through hostOps0) rfl

theorem V5_arg3 : V5 m ρ c main_arg3 = m ((c : Thread nD τ).loc main_arg3) := by
  show StableHlo.after hostOps2 (W4 m ρ c) (Proc.devRef .tc main_arg3) = _
  refine Eq.trans (by kept_through hostOps2) (W4_arg3 m ρ c)

theorem V5_scale : V5 m ρ c main_v20 (ix2 0 0) = wscale (abssum (m ((c : Thread nD τ).loc main_arg3))) := by
  have e : (V5 m ρ c main_v20 : S1x1.Idx → EReal) = shapeCast S1x1 (hostScaleD (W4 m ρ c (Proc.devRef .tc main_arg3))) shapeCasts_S_S1x1 := by
    show StableHlo.after hostOps2 (W4 m ρ c) (Proc.devRef .tc main_v20) = _
    after_results
    rfl
  rw [W4_arg3] at e
  exact (congrFun e (ix2 0 0)).trans ((scalar_to_1x1 _ _ _).trans (hostScaleD_apply _ _))

/-! ## Region 3's entry: the flattened activations and the two quantised matrices, as their regions left them -/

theorem V6_v0 : V6 m ρ c main_v0 = V1 m ρ c main_v0 := by
  refine (W6_of_ne m ρ c main_v0 (by decide)).trans ?_
  show StableHlo.after hostOps2 (W4 m ρ c) (Proc.devRef .tc main_v0) = _
  refine Eq.trans (by kept_through hostOps2) ?_
  refine (W4_of_ne m ρ c main_v0 (by decide)).trans ?_
  show StableHlo.after hostOps1 (W2 m ρ c) (Proc.devRef .tc main_v0) = _
  refine Eq.trans (by kept_through hostOps1) ?_
  exact W2_of_ne m ρ c main_v0 (by decide)

theorem V6_v7 : V6 m ρ c main_v7 = (dat0 (V1 m ρ) c).arrAt 2 cfg0.N := by
  refine (W6_of_ne m ρ c main_v7 (by decide)).trans ?_
  show StableHlo.after hostOps2 (W4 m ρ c) (Proc.devRef .tc main_v7) = _
  refine Eq.trans (by kept_through hostOps2) ?_
  refine (W4_of_ne m ρ c main_v7 (by decide)).trans ?_
  show StableHlo.after hostOps1 (W2 m ρ c) (Proc.devRef .tc main_v7) = _
  refine Eq.trans (by kept_through hostOps1) ?_
  exact W2_arr m ρ c 2

theorem V6_v14 : V6 m ρ c main_v14 = (dat1 (V3 m ρ) c).arrAt 2 cfg1.N := by
  refine (W6_of_ne m ρ c main_v14 (by decide)).trans ?_
  show StableHlo.after hostOps2 (W4 m ρ c) (Proc.devRef .tc main_v14) = _
  refine Eq.trans (by kept_through hostOps2) ?_
  exact W4_arr m ρ c 2

/-! ## Region 4's entry: the hidden array and the quantised down weights -/

theorem V7_v22 : V7 m ρ c main_v22 = (dat3 (V6 m ρ) c).arrAt 3 cfg3.N := W7_arr m ρ c 3

theorem V7_v21 : V7 m ρ c main_v21 = (dat2 (V5 m ρ) c).arrAt 2 cfg2.N := by
  refine (W7_of_ne m ρ c main_v21 (by decide)).trans ?_
  exact W6_arr m ρ c 2

/-! ## The result -/

theorem W9_v24 : (W9 m ρ c (Proc.devRef .tc main_v24) : S4x2048x2048.Idx → EReal)
    = shapeCast S4x2048x2048 ((dat4 (V7 m ρ) c).arrAt 2 cfg4.N) shapeCasts_S8192x2048_S4x2048x2048 := by
  have e : (W9 m ρ c (Proc.devRef .tc main_v24) : S4x2048x2048.Idx → EReal)
      = shapeCast S4x2048x2048 (W8 m ρ c (Proc.devRef .tc main_v23)) shapeCasts_S8192x2048_S4x2048x2048 := by
    show StableHlo.after hostOps5 (W8 m ρ c) (Proc.devRef .tc main_v24) = _
    after_results
    rfl
  rw [e, W8_arr m ρ c 2]

end Cert.KernelIdeal.KValue

end
-- ==== Proof.KTern.lean ====
/-
  The three weight-quantisation regions, from blocks to whole arrays.

  Each region runs over eight grid points; point `t` reads the one scale (a 1×1 array whose block never moves) and
  row block `t` of the weight matrix, and writes row block `t` of the result: every entry `w` of the block becomes
  `tern s w`.  The row blocks tile the matrix, so after the region the result array is `fun i => tern s (w i)` as a
  whole.  Stated for ANY buffer contents `V` at the region's entry, with the body's arithmetic at an index taken as a
  hypothesis (the payload modules prove it).
-/
import proofs.«124648_j32409823216253_1_alg».proof.Proof.Gen.KernelIdeal.Frame
import proofs.«124648_j32409823216253_1_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.BitFFN
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: one weight matrix quantised, 1024 rows at a time -/

/-- The printed index maps of region 0 over its grid: the scale's 1×1 block never moves; the weight's block and the
    output's block are the same row block, numbered by the point. -/
theorem idx_facts0 : ∀ t : Fin cfg0.N, win0_0.index t (0 : Fin 2) = 0 ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) = t.val :=
  (by decide +kernel : ∀ t : Fin grid0.N, _)

/-- What point `t` writes back is block `t` of the quantised matrix: every entry of the weight's row block through
    `tern` at the one scale the 1×1 array holds. -/
theorem flushed0 (c : Dev nD) (t : Fin cfg0.N)
    (hpay : ∀ (v0 : Vec Ideal S1x1 .f32) (v2 : Vec Ideal S1024x2048 .f32) (p : Fin 1024) (q : Fin 2048),
      k0_pay1 (F := Ideal) v0 v2 (ix2 p q) = tern (v0 (ix2 0 0)) (v2 (ix2 p q))) :
    (dat0 (F := Ideal) V c).flushed 2 t
      = ((cfg0.win 2).blk t).view.read (Elt Ideal) (fun i => tern (V c main_v6 (ix2 0 0)) (V c main_arg1 i)) := by
  show (cfg0.win 2).cut (grid0.coords t) ((dat0 V c).after 2 t) = _
  rw [after0_2]
  unfold out0_2
  rw [View.canon_unit_zero hz]
  simp only [View.ld_unit_zero (S := S1x1) hz, View.ld_unit_zero (S := S1024x2048) hz]
  obtain ⟨e0, e1, e2, e3, e4, e5⟩ := idx_facts0 t
  funext j
  show k0_pay1 (iblk0 V c 0 t) (iblk0 V c 1 t) j = tern (V c main_v6 (ix2 0 0)) (V c main_arg1 (((cfg0.win 2).blk t).view.emb j))
  refine ((eq_ix2 j) ▸ hpay (iblk0 V c 0 t) (iblk0 V c 1 t) (j 0) (j 1) : k0_pay1 (F := Ideal) (iblk0 V c 0 t) (iblk0 V c 1 t) j = tern (iblk0 V c 0 t (ix2 0 0)) (iblk0 V c 1 t j)).trans ?_
  have h0 : ((cfg0.win 0).blk t).view.emb (ix2 0 0) = (ix2 0 0 : S1x1.Idx) := by
    funext a; apply Fin.ext
    match a with
    | ⟨0, _⟩ => show win0_0.index t (0 : Fin 2) * 1 + 1 * 0 = 0; omega
    | ⟨1, _⟩ => show win0_0.index t (1 : Fin 2) * 1 + 1 * 0 = 0; omega
  have h1 : ((cfg0.win 1).blk t).view.emb j = ((cfg0.win 2).blk t).view.emb j := by
    funext a; apply Fin.ext
    match a with
    | ⟨0, _⟩ => show win0_1.index t (0 : Fin 2) * 1024 + 1 * (j 0).val = win0_2.index t (0 : Fin 2) * 1024 + 1 * (j 0).val; omega
    | ⟨1, _⟩ => show win0_1.index t (1 : Fin 2) * 2048 + 1 * (j 1).val = win0_2.index t (1 : Fin 2) * 2048 + 1 * (j 1).val; omega
  show tern (V c main_v6 (((cfg0.win 0).blk t).view.emb (ix2 0 0))) (V c main_arg1 (((cfg0.win 1).blk t).view.emb j)) = _
  rw [h0, h1]

/-- An index of the array is in point `t`'s block iff each coordinate is in the block's range on its axis. -/
theorem mem_blk0 (t : Fin cfg0.N) (i : S8192x2048.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v7).slice (win0_2.rect t)).set ↔ _
  rw [View.set_slice_whole, Rect.mem_set_unit]
  exact Iff.rfl

/-- Every index is in some point's block: row `r` is in block `r / 1024`. -/
theorem cover0 (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  have hN : grid0.N = 8 := N_0
  refine ⟨⟨(i 0).val / 1024, by show (i 0).val / 1024 < grid0.N; omega⟩, flush0_2 _, ?_⟩
  rw [mem_blk0]
  obtain ⟨e0, e1, e2, e3, e4, e5⟩ := idx_facts0 ⟨(i 0).val / 1024, by show (i 0).val / 1024 < grid0.N; omega⟩
  have e5' : win0_2.index ⟨(i 0).val / 1024, by show (i 0).val / 1024 < grid0.N; omega⟩ (0 : Fin 2) = (i 0).val / 1024 := e5
  intro a
  match a with
  | ⟨0, _⟩ => show win0_2.index _ (0 : Fin 2) * 1024 ≤ (i 0).val ∧ (i 0).val < win0_2.index _ (0 : Fin 2) * 1024 + 1024; omega
  | ⟨1, _⟩ => show win0_2.index _ (1 : Fin 2) * 2048 ≤ (i 1).val ∧ (i 1).val < win0_2.index _ (1 : Fin 2) * 2048 + 2048; omega

/-- The array region 0 leaves: the whole weight matrix through `tern` at the scale. -/
theorem final0 (c : Dev nD)
    (hpay : ∀ (v0 : Vec Ideal S1x1 .f32) (v2 : Vec Ideal S1024x2048 .f32) (p : Fin 1024) (q : Fin 2048),
      k0_pay1 (F := Ideal) v0 v2 (ix2 p q) = tern (v0 (ix2 0 0)) (v2 (ix2 p q))) :
    (dat0 (F := Ideal) V c).arrAt 2 cfg0.N = fun i => tern (V c main_v6 (ix2 0 0)) (V c main_arg1 i) :=
  (dat0 (F := Ideal) V c).arrAt_eq_of_cover 2 _ (fun t _ => flushed0 V c t hpay) cover0

/-! ## Region 1: one weight matrix quantised, 1024 rows at a time -/

/-- The printed index maps of region 1 over its grid: the scale's 1×1 block never moves; the weight's block and the
    output's block are the same row block, numbered by the point. -/
theorem idx_facts1 : ∀ t : Fin cfg1.N, win1_0.index t (0 : Fin 2) = 0 ∧ win1_0.index t (1 : Fin 2) = 0
    ∧ win1_1.index t (0 : Fin 2) = win1_2.index t (0 : Fin 2) ∧ win1_1.index t (1 : Fin 2) = 0
    ∧ win1_2.index t (1 : Fin 2) = 0 ∧ win1_2.index t (0 : Fin 2) = t.val :=
  (by decide +kernel : ∀ t : Fin grid1.N, _)

/-- What point `t` writes back is block `t` of the quantised matrix: every entry of the weight's row block through
    `tern` at the one scale the 1×1 array holds. -/
theorem flushed1 (c : Dev nD) (t : Fin cfg1.N)
    (hpay : ∀ (v0 : Vec Ideal S1x1 .f32) (v2 : Vec Ideal S1024x2048 .f32) (p : Fin 1024) (q : Fin 2048),
      k1_pay1 (F := Ideal) v0 v2 (ix2 p q) = tern (v0 (ix2 0 0)) (v2 (ix2 p q))) :
    (dat1 (F := Ideal) V c).flushed 2 t
      = ((cfg1.win 2).blk t).view.read (Elt Ideal) (fun i => tern (V c main_v13 (ix2 0 0)) (V c main_arg2 i)) := by
  show (cfg1.win 2).cut (grid1.coords t) ((dat1 V c).after 2 t) = _
  rw [after1_2]
  unfold out1_2
  rw [View.canon_unit_zero hz]
  simp only [View.ld_unit_zero (S := S1x1) hz, View.ld_unit_zero (S := S1024x2048) hz]
  obtain ⟨e0, e1, e2, e3, e4, e5⟩ := idx_facts1 t
  funext j
  show k1_pay1 (iblk1 V c 0 t) (iblk1 V c 1 t) j = tern (V c main_v13 (ix2 0 0)) (V c main_arg2 (((cfg1.win 2).blk t).view.emb j))
  refine ((eq_ix2 j) ▸ hpay (iblk1 V c 0 t) (iblk1 V c 1 t) (j 0) (j 1) : k1_pay1 (F := Ideal) (iblk1 V c 0 t) (iblk1 V c 1 t) j = tern (iblk1 V c 0 t (ix2 0 0)) (iblk1 V c 1 t j)).trans ?_
  have h0 : ((cfg1.win 0).blk t).view.emb (ix2 0 0) = (ix2 0 0 : S1x1.Idx) := by
    funext a; apply Fin.ext
    match a with
    | ⟨0, _⟩ => show win1_0.index t (0 : Fin 2) * 1 + 1 * 0 = 0; omega
    | ⟨1, _⟩ => show win1_0.index t (1 : Fin 2) * 1 + 1 * 0 = 0; omega
  have h1 : ((cfg1.win 1).blk t).view.emb j = ((cfg1.win 2).blk t).view.emb j := by
    funext a; apply Fin.ext
    match a with
    | ⟨0, _⟩ => show win1_1.index t (0 : Fin 2) * 1024 + 1 * (j 0).val = win1_2.index t (0 : Fin 2) * 1024 + 1 * (j 0).val; omega
    | ⟨1, _⟩ => show win1_1.index t (1 : Fin 2) * 2048 + 1 * (j 1).val = win1_2.index t (1 : Fin 2) * 2048 + 1 * (j 1).val; omega
  show tern (V c main_v13 (((cfg1.win 0).blk t).view.emb (ix2 0 0))) (V c main_arg2 (((cfg1.win 1).blk t).view.emb j)) = _
  rw [h0, h1]

/-- An index of the array is in point `t`'s block iff each coordinate is in the block's range on its axis. -/
theorem mem_blk1 (t : Fin cfg1.N) (i : S8192x2048.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v14).slice (win1_2.rect t)).set ↔ _
  rw [View.set_slice_whole, Rect.mem_set_unit]
  exact Iff.rfl

/-- Every index is in some point's block: row `r` is in block `r / 1024`. -/
theorem cover1 (i : S8192x2048.Idx) :
    ∃ t : Fin cfg1.N, (cfg1.win 2).flush t = true ∧ i ∈ ((cfg1.win 2).blk t).view.set := by
  have hi0 : (i 0).val < 8192 := (i 0).isLt
  have hi1 : (i 1).val < 2048 := (i 1).isLt
  have hN : grid1.N = 8 := N_1
  refine ⟨⟨(i 0).val / 1024, by show (i 0).val / 1024 < grid1.N; omega⟩, flush1_2 _, ?_⟩
  rw [mem_blk1]
  obtain ⟨e0, e1, e2, e3, e4, e5⟩ := idx_facts1 ⟨(i 0).val / 1024, by show (i 0).val / 1024 < grid1.N; omega⟩
  have e5' : win1_2.index ⟨(i 0).val / 1024, by show (i 0).val / 1024 < grid1.N; omega⟩ (0 : Fin 2) = (i 0).val / 1024 := e5
  intro a
  match a with
  | ⟨0, _⟩ => show win1_2.index _ (0 : Fin 2) * 1024 ≤ (i 0).val ∧ (i 0).val < win1_2.index _ (0 : Fin 2) * 1024 + 1024; omega
  | ⟨1, _⟩ => show win1_2.index _ (1 : Fin 2) * 2048 ≤ (i 1).val ∧ (i 1).val < win1_2.index _ (1 : Fin 2) * 2048 + 2048; omega

/-- The array region 1 leaves: the whole weight matrix through `tern` at the scale. -/
theorem final1 (c : Dev nD)
    (hpay : ∀ (v0 : Vec Ideal S1x1 .f32) (v2 : Vec Ideal S1024x2048 .f32) (p : Fin 1024) (q : Fin 2048),
      k1_pay1 (F := Ideal) v0 v2 (ix2 p q) = tern (v0 (ix2 0 0)) (v2 (ix2 p q))) :
    (dat1 (F := Ideal) V c).arrAt 2 cfg1.N = fun i => tern (V c main_v13 (ix2 0 0)) (V c main_arg2 i) :=
  (dat1 (F := Ideal) V c).arrAt_eq_of_cover 2 _ (fun t _ => flushed1 V c t hpay) cover1

/-! ## Region 2: one weight matrix quantised, 256 rows at a time -/

/-- The printed index maps of region 2 over its grid: the scale's 1×1 block never moves; the weight's block and the
    output's block are the same row block, numbered by the point. -/
theorem idx_facts2 : ∀ t : Fin cfg2.N, win2_0.index t (0 : Fin 2) = 0 ∧ win2_0.index t (1 : Fin 2) = 0
    ∧ win2_1.index t (0 : Fin 2) = win2_2.index t (0 : Fin 2) ∧ win2_1.index t (1 : Fin 2) = 0
    ∧ win2_2.index t (1 : Fin 2) = 0 ∧ win2_2.index t (0 : Fin 2) = t.val :=
  (by decide +kernel : ∀ t : Fin grid2.N, _)

/-- What point `t` writes back is block `t` of the quantised matrix: every entry of the weight's row block through
    `tern` at the one scale the 1×1 array holds. -/
theorem flushed2 (c : Dev nD) (t : Fin cfg2.N)
    (hpay : ∀ (v0 : Vec Ideal S1x1 .f32) (v2 : Vec Ideal S256x8192 .f32) (p : Fin 256) (q : Fin 8192),
      k2_pay1 (F := Ideal) v0 v2 (ix2 p q) = tern (v0 (ix2 0 0)) (v2 (ix2 p q))) :
    (dat2 (F := Ideal) V c).flushed 2 t
      = ((cfg2.win 2).blk t).view.read (Elt Ideal) (fun i => tern (V c main_v20 (ix2 0 0)) (V c main_arg3 i)) := by
  show (cfg2.win 2).cut (grid2.coords t) ((dat2 V c).after 2 t) = _
  rw [after2_2]
  unfold out2_2
  rw [View.canon_unit_zero hz]
  simp only [View.ld_unit_zero (S := S1x1) hz, View.ld_unit_zero (S := S256x8192) hz]
  obtain ⟨e0, e1, e2, e3, e4, e5⟩ := idx_facts2 t
  funext j
  show k2_pay1 (iblk2 V c 0 t) (iblk2 V c 1 t) j = tern (V c main_v20 (ix2 0 0)) (V c main_arg3 (((cfg2.win 2).blk t).view.emb j))
  refine ((eq_ix2 j) ▸ hpay (iblk2 V c 0 t) (iblk2 V c 1 t) (j 0) (j 1) : k2_pay1 (F := Ideal) (iblk2 V c 0 t) (iblk2 V c 1 t) j = tern (iblk2 V c 0 t (ix2 0 0)) (iblk2 V c 1 t j)).trans ?_
  have h0 : ((cfg2.win 0).blk t).view.emb (ix2 0 0) = (ix2 0 0 : S1x1.Idx) := by
    funext a; apply Fin.ext
    match a with
    | ⟨0, _⟩ => show win2_0.index t (0 : Fin 2) * 1 + 1 * 0 = 0; omega
    | ⟨1, _⟩ => show win2_0.index t (1 : Fin 2) * 1 + 1 * 0 = 0; omega
  have h1 : ((cfg2.win 1).blk t).view.emb j = ((cfg2.win 2).blk t).view.emb j := by
    funext a; apply Fin.ext
    match a with
    | ⟨0, _⟩ => show win2_1.index t (0 : Fin 2) * 256 + 1 * (j 0).val = win2_2.index t (0 : Fin 2) * 256 + 1 * (j 0).val; omega
    | ⟨1, _⟩ => show win2_1.index t (1 : Fin 2) * 8192 + 1 * (j 1).val = win2_2.index t (1 : Fin 2) * 8192 + 1 * (j 1).val; omega
  show tern (V c main_v20 (((cfg2.win 0).blk t).view.emb (ix2 0 0))) (V c main_arg3 (((cfg2.win 1).blk t).view.emb j)) = _
  rw [h0, h1]

/-- An index of the array is in point `t`'s block iff each coordinate is in the block's range on its axis. -/
theorem mem_blk2 (t : Fin cfg2.N) (i : S2048x8192.Idx) :
    i ∈ ((cfg2.win 2).blk t).view.set ↔ ∀ a : Fin 2, win2_2.index t a * S256x8192.size a ≤ (i a).val ∧ (i a).val < win2_2.index t a * S256x8192.size a + S256x8192.size a := by
  show i ∈ ((View.whole main_v21).slice (win2_2.rect t)).set ↔ _
  rw [View.set_slice_whole, Rect.mem_set_unit]
  exact Iff.rfl

/-- Every index is in some point's block: row `r` is in block `r / 256`. -/
theorem cover2 (i : S2048x8192.Idx) :
    ∃ t : Fin cfg2.N, (cfg2.win 2).flush t = true ∧ i ∈ ((cfg2.win 2).blk t).view.set := by
  have hi0 : (i 0).val < 2048 := (i 0).isLt
  have hi1 : (i 1).val < 8192 := (i 1).isLt
  have hN : grid2.N = 8 := N_2
  refine ⟨⟨(i 0).val / 256, by show (i 0).val / 256 < grid2.N; omega⟩, flush2_2 _, ?_⟩
  rw [mem_blk2]
  obtain ⟨e0, e1, e2, e3, e4, e5⟩ := idx_facts2 ⟨(i 0).val / 256, by show (i 0).val / 256 < grid2.N; omega⟩
  have e5' : win2_2.index ⟨(i 0).val / 256, by show (i 0).val / 256 < grid2.N; omega⟩ (0 : Fin 2) = (i 0).val / 256 := e5
  intro a
  match a with
  | ⟨0, _⟩ => show win2_2.index _ (0 : Fin 2) * 256 ≤ (i 0).val ∧ (i 0).val < win2_2.index _ (0 : Fin 2) * 256 + 256; omega
  | ⟨1, _⟩ => show win2_2.index _ (1 : Fin 2) * 8192 ≤ (i 1).val ∧ (i 1).val < win2_2.index _ (1 : Fin 2) * 8192 + 8192; omega

/-- The array region 2 leaves: the whole weight matrix through `tern` at the scale. -/
theorem final2 (c : Dev nD)
    (hpay : ∀ (v0 : Vec Ideal S1x1 .f32) (v2 : Vec Ideal S256x8192 .f32) (p : Fin 256) (q : Fin 8192),
      k2_pay1 (F := Ideal) v0 v2 (ix2 p q) = tern (v0 (ix2 0 0)) (v2 (ix2 p q))) :
    (dat2 (F := Ideal) V c).arrAt 2 cfg2.N = fun i => tern (V c main_v20 (ix2 0 0)) (V c main_arg3 i) :=
  (dat2 (F := Ideal) V c).arrAt_eq_of_cover 2 _ (fun t _ => flushed2 V c t hpay) cover2

end Cert.KernelIdeal.KValue

end
-- ==== Proof.KHidden.lean ====
/-
  The gate/up region, from blocks to the whole array.

  The grid is 16 × 8 points.  Point (i, j) reads row block i of the activations (512 rows, all 2048 lanes), row block j
  of each of the two quantised weight matrices (1024 rows, all 2048 lanes) and writes block (i, j) of the hidden
  array: entry (p, q) of the block is `hRow` of activation row p against the weight rows, at q.  An entry of the
  hidden array therefore depends on its own activation row and its own two weight rows only, so the blocks are the
  restrictions of ONE function of the whole arrays, and since the blocks tile the array it ends as that function.
  Stated for ANY buffer contents `V` at the region's entry, with the body's arithmetic at an index as a hypothesis.
-/
import proofs.«124648_j32409823216253_1_alg».proof.Proof.Gen.KernelIdeal.Frame
import proofs.«124648_j32409823216253_1_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.BitFFN
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The hidden array as one function of the activations `x` and the two quantised weight matrices. -/
def hiddenOf (x wg wu : S8192x2048.Idx → EReal) : S8192x8192.Idx → EReal := fun i =>
  hRow (fun d : Fin 2048 => x (ix2 (i 0) d)) (fun (f : Fin 8192) (d : Fin 2048) => wg (ix2 f d))
    (fun (f : Fin 8192) (d : Fin 2048) => wu (ix2 f d)) (i 1)

/-- The printed index maps over the grid: the activations' block follows the output's row block, both weights'
    blocks the output's column block, every lane axis stays at block 0; the output's block indices stay in range. -/
theorem idx_facts3 : ∀ t : Fin cfg3.N, win3_0.index t (0 : Fin 2) = win3_3.index t (0 : Fin 2) ∧ win3_0.index t (1 : Fin 2) = 0
    ∧ win3_1.index t (0 : Fin 2) = win3_3.index t (1 : Fin 2) ∧ win3_1.index t (1 : Fin 2) = 0
    ∧ win3_2.index t (0 : Fin 2) = win3_3.index t (1 : Fin 2) ∧ win3_2.index t (1 : Fin 2) = 0
    ∧ win3_3.index t (0 : Fin 2) ≤ 15 ∧ win3_3.index t (1 : Fin 2) ≤ 7 :=
  (by decide +kernel : ∀ t : Fin grid3.N, _)

/-- Every block of the array is some point's. -/
theorem idx_onto3 : ∀ (q0 : Fin 16) (q1 : Fin 8), ∃ t : Fin cfg3.N, win3_3.index t = ![q0.val, q1.val] :=
  (by decide +kernel : ∀ (q0 : Fin 16) (q1 : Fin 8), ∃ t : Fin grid3.N, win3_3.index t = ![q0.val, q1.val])

/-- `hRow` at a weight row depends on the weight matrices through that row only: a block of weight rows read at its
    own numbering gives the same value as the whole matrix read at the row's number in the array. -/
theorem hRow_rows {n m m' : Nat} (xr : Fin n → EReal) (wg wu : Fin m → Fin n → EReal) (wg' wu' : Fin m' → Fin n → EReal)
    (f : Fin m) (f' : Fin m') (hg : wg f = wg' f') (hu : wu f = wu' f') : hRow xr wg wu f = hRow xr wg' wu' f' := by
  unfold hRow; rw [hg, hu]

/-- What point `t` writes back is block `t` of the hidden array. -/
theorem flushed3 (c : Dev nD) (t : Fin cfg3.N)
    (hpay : ∀ (v0 : Vec Ideal S512x2048 .f32) (v19 v21 : Vec Ideal S1024x2048 .bf16) (p : Fin 512) (q : Fin 1024),
      k3_pay1 (F := Ideal) v0 v19 v21 (ix2 p q)
        = hRow (fun d : Fin 2048 => v0 (ix2 p d)) (fun (f : Fin 1024) (d : Fin 2048) => v19 (ix2 f d))
            (fun (f : Fin 1024) (d : Fin 2048) => v21 (ix2 f d)) q) :
    (dat3 (F := Ideal) V c).flushed 3 t
      = ((cfg3.win 3).blk t).view.read (Elt Ideal) (hiddenOf (V c main_v0) (V c main_v7) (V c main_v14)) := by
  show (cfg3.win 3).cut (grid3.coords t) ((dat3 V c).after 3 t) = _
  rw [after3_3]
  unfold out3_3
  rw [View.canon_unit_zero hz3]
  simp only [View.ld_unit_zero (S := S512x2048) hz3, View.ld_unit_zero (S := S1024x2048) hz3]
  obtain ⟨e0, e1, e2, e3, e4, e5, e6, e7⟩ := idx_facts3 t
  funext j
  show k3_pay1 (iblk3 V c 0 t) (iblk3 V c 1 t) (iblk3 V c 2 t) j
      = hiddenOf (V c main_v0) (V c main_v7) (V c main_v14) (((cfg3.win 3).blk t).view.emb j)
  refine ((eq_ix2 j) ▸ hpay (iblk3 V c 0 t) (iblk3 V c 1 t) (iblk3 V c 2 t) (j 0) (j 1) :
      k3_pay1 (F := Ideal) (iblk3 V c 0 t) (iblk3 V c 1 t) (iblk3 V c 2 t) j
        = hRow (fun d : Fin 2048 => iblk3 V c 0 t (ix2 (j 0) d)) (fun (f : Fin 1024) (d : Fin 2048) => iblk3 V c 1 t (ix2 f d))
            (fun (f : Fin 1024) (d : Fin 2048) => iblk3 V c 2 t (ix2 f d)) (j 1)).trans ?_
  -- the activation row: block row j 0 of row block `index 0` is array row index·512 + j 0
  have hx : (fun d : Fin 2048 => iblk3 V c 0 t (ix2 (j 0) d))
      = fun d : Fin 2048 => V c main_v0 (ix2 ((((cfg3.win 3).blk t).view.emb j) 0) d) := by
    funext d
    show V c main_v0 (((cfg3.win 0).blk t).view.emb (ix2 (j 0) d)) = _
    refine congrArg (V c main_v0) ?_
    funext a; apply Fin.ext
    match a with
    | ⟨0, _⟩ => show win3_0.index t (0 : Fin 2) * 512 + 1 * (j 0).val = win3_3.index t (0 : Fin 2) * 512 + 1 * (j 0).val; omega
    | ⟨1, _⟩ => show win3_0.index t (1 : Fin 2) * 2048 + 1 * d.val = d.val; omega
  rw [hx]
  unfold hiddenOf
  have hq : (j 1).val < 1024 := (j 1).isLt
  refine hRow_rows _ _ _ _ _ (j 1) ((((cfg3.win 3).blk t).view.emb j) 1) ?_ ?_
  · funext d
    show V c main_v7 (((cfg3.win 1).blk t).view.emb (ix2 (j 1) d)) = V c main_v7 (ix2 ((((cfg3.win 3).blk t).view.emb j) 1) d)
    refine congrArg (V c main_v7) ?_
    funext a; apply Fin.ext
    match a with
    | ⟨0, _⟩ => show win3_1.index t (0 : Fin 2) * 1024 + 1 * (j 1).val = win3_3.index t (1 : Fin 2) * 1024 + 1 * (j 1).val; omega
    | ⟨1, _⟩ => show win3_1.index t (1 : Fin 2) * 2048 + 1 * d.val = d.val; omega
  · funext d
    show V c main_v14 (((cfg3.win 2).blk t).view.emb (ix2 (j 1) d)) = V c main_v14 (ix2 ((((cfg3.win 3).blk t).view.emb j) 1) d)
    refine congrArg (V c main_v14) ?_
    funext a; apply Fin.ext
    match a with
    | ⟨0, _⟩ => show win3_2.index t (0 : Fin 2) * 1024 + 1 * (j 1).val = win3_3.index t (1 : Fin 2) * 1024 + 1 * (j 1).val; omega
    | ⟨1, _⟩ => show win3_2.index t (1 : Fin 2) * 2048 + 1 * d.val = d.val; omega

/-- An index of the array is in point `t`'s block iff each coordinate is in the block's range on its axis. -/
theorem mem_blk3 (t : Fin cfg3.N) (i : S8192x8192.Idx) :
    i ∈ ((cfg3.win 3).blk t).view.set ↔ ∀ a : Fin 2, win3_3.index t a * S512x1024.size a ≤ (i a).val ∧ (i a).val < win3_3.index t a * S512x1024.size a + S512x1024.size a := by
  show i ∈ ((View.whole main_v22).slice (win3_3.rect t)).set ↔ _
  rw [View.set_slice_whole, Rect.mem_set_unit]
  exact Iff.rfl

/-- Every index is in some point's block: entry (r, f) is in block (r / 512, f / 1024). -/
theorem cover3 (i : S8192x8192.Idx) :
    ∃ t : Fin cfg3.N, (cfg3.win 3).flush t = true ∧ i ∈ ((cfg3.win 3).blk t).view.set := by
  have hi0 : (i 0).val < 8192 := (i 0).isLt
  have hi1 : (i 1).val < 8192 := (i 1).isLt
  obtain ⟨t, ht⟩ := idx_onto3 ⟨(i 0).val / 512, by omega⟩ ⟨(i 1).val / 1024, by omega⟩
  have q0 : win3_3.index t (0 : Fin 2) = (i 0).val / 512 := congrFun ht 0
  have q1 : win3_3.index t (1 : Fin 2) = (i 1).val / 1024 := congrFun ht 1
  refine ⟨t, flush3_3 t, ?_⟩
  rw [mem_blk3]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 1024 ≤ (i 1).val ∧ (i 1).val < win3_3.index t (1 : Fin 2) * 1024 + 1024; omega

/-- The array the gate/up region leaves. -/
theorem final3 (c : Dev nD)
    (hpay : ∀ (v0 : Vec Ideal S512x2048 .f32) (v19 v21 : Vec Ideal S1024x2048 .bf16) (p : Fin 512) (q : Fin 1024),
      k3_pay1 (F := Ideal) v0 v19 v21 (ix2 p q)
        = hRow (fun d : Fin 2048 => v0 (ix2 p d)) (fun (f : Fin 1024) (d : Fin 2048) => v19 (ix2 f d))
            (fun (f : Fin 1024) (d : Fin 2048) => v21 (ix2 f d)) q) :
    (dat3 (F := Ideal) V c).arrAt 3 cfg3.N = hiddenOf (V c main_v0) (V c main_v7) (V c main_v14) :=
  (dat3 (F := Ideal) V c).arrAt_eq_of_cover 3 _ (fun t _ => flushed3 V c t hpay) cover3

end Cert.KernelIdeal.KValue

end
-- ==== Proof.KOut.lean ====
/-
  The down-projection region, from blocks to the whole array.

  The grid is 32 × 4 points.  Point (i, k) reads row block i of the hidden array (256 rows, all 8192 lanes) and row
  block k of the quantised down-projection weights (512 rows, all 8192 lanes), and writes block (i, k) of the
  result: entry (p, q) of the block is `oRow` of hidden row p against the weight rows, at q.  An entry of the result
  depends on its own hidden row and its own weight row only, so the blocks are restrictions of ONE function of the
  whole arrays, and since they tile the array it ends as that function.  Stated for ANY buffer contents `V` at the
  region's entry, with the body's arithmetic at an index as a hypothesis.
-/
import proofs.«124648_j32409823216253_1_alg».proof.Proof.Gen.KernelIdeal.Frame
import proofs.«124648_j32409823216253_1_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.BitFFN
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The result array as one function of the hidden array `h` and the quantised down-projection weights. -/
def outOf (h : S8192x8192.Idx → EReal) (wd : S2048x8192.Idx → EReal) : S8192x2048.Idx → EReal := fun i =>
  oRow (fun f : Fin 8192 => h (ix2 (i 0) f)) (fun (k : Fin 2048) (f : Fin 8192) => wd (ix2 k f)) (i 1)

/-- The printed index maps over the grid: the hidden array's block follows the output's row block, the weights'
    block the output's column block, the lane axis stays at block 0; the output's block indices stay in range. -/
theorem idx_facts4 : ∀ t : Fin cfg4.N, win4_0.index t (0 : Fin 2) = win4_2.index t (0 : Fin 2) ∧ win4_0.index t (1 : Fin 2) = 0
    ∧ win4_1.index t (0 : Fin 2) = win4_2.index t (1 : Fin 2) ∧ win4_1.index t (1 : Fin 2) = 0
    ∧ win4_2.index t (0 : Fin 2) ≤ 31 ∧ win4_2.index t (1 : Fin 2) ≤ 3 :=
  (by decide +kernel : ∀ t : Fin grid4.N, _)

/-- Every block of the array is some point's. -/
theorem idx_onto4 : ∀ (q0 : Fin 32) (q1 : Fin 4), ∃ t : Fin cfg4.N, win4_2.index t = ![q0.val, q1.val] :=
  (by decide +kernel : ∀ (q0 : Fin 32) (q1 : Fin 4), ∃ t : Fin grid4.N, win4_2.index t = ![q0.val, q1.val])

/-- `oRow` at a weight row depends on the weight matrix through that row only. -/
theorem oRow_rows {m p p' : Nat} (hr : Fin m → EReal) (wd : Fin p → Fin m → EReal) (wd' : Fin p' → Fin m → EReal)
    (k : Fin p) (k' : Fin p') (h : wd k = wd' k') : oRow hr wd k = oRow hr wd' k' := by
  unfold oRow; rw [h]

/-- What point `t` writes back is block `t` of the result array. -/
theorem flushed4 (c : Dev nD) (t : Fin cfg4.N)
    (hpay : ∀ (v0 : Vec Ideal S256x8192 .f32) (v19 : Vec Ideal S512x8192 .bf16) (p : Fin 256) (q : Fin 512),
      k4_pay1 (F := Ideal) v0 v19 (ix2 p q)
        = oRow (fun f : Fin 8192 => v0 (ix2 p f)) (fun (k : Fin 512) (f : Fin 8192) => v19 (ix2 k f)) q) :
    (dat4 (F := Ideal) V c).flushed 2 t
      = ((cfg4.win 2).blk t).view.read (Elt Ideal) (outOf (V c main_v22) (V c main_v21)) := by
  show (cfg4.win 2).cut (grid4.coords t) ((dat4 V c).after 2 t) = _
  rw [after4_2]
  unfold out4_2
  rw [View.canon_unit_zero hz4]
  simp only [View.ld_unit_zero (S := S256x8192) hz4, View.ld_unit_zero (S := S512x8192) hz4]
  obtain ⟨e0, e1, e2, e3, e4, e5⟩ := idx_facts4 t
  funext j
  show k4_pay1 (iblk4 V c 0 t) (iblk4 V c 1 t) j
      = outOf (V c main_v22) (V c main_v21) (((cfg4.win 2).blk t).view.emb j)
  refine ((eq_ix2 j) ▸ hpay (iblk4 V c 0 t) (iblk4 V c 1 t) (j 0) (j 1) :
      k4_pay1 (F := Ideal) (iblk4 V c 0 t) (iblk4 V c 1 t) j
        = oRow (fun f : Fin 8192 => iblk4 V c 0 t (ix2 (j 0) f)) (fun (k : Fin 512) (f : Fin 8192) => iblk4 V c 1 t (ix2 k f)) (j 1)).trans ?_
  have hx : (fun f : Fin 8192 => iblk4 V c 0 t (ix2 (j 0) f))
      = fun f : Fin 8192 => V c main_v22 (ix2 ((((cfg4.win 2).blk t).view.emb j) 0) f) := by
    funext f
    show V c main_v22 (((cfg4.win 0).blk t).view.emb (ix2 (j 0) f)) = _
    refine congrArg (V c main_v22) ?_
    funext a; apply Fin.ext
    match a with
    | ⟨0, _⟩ => show win4_0.index t (0 : Fin 2) * 256 + 1 * (j 0).val = win4_2.index t (0 : Fin 2) * 256 + 1 * (j 0).val; omega
    | ⟨1, _⟩ => show win4_0.index t (1 : Fin 2) * 8192 + 1 * f.val = f.val; omega
  rw [hx]
  unfold outOf
  refine oRow_rows _ _ _ (j 1) ((((cfg4.win 2).blk t).view.emb j) 1) ?_
  funext f
  show V c main_v21 (((cfg4.win 1).blk t).view.emb (ix2 (j 1) f)) = V c main_v21 (ix2 ((((cfg4.win 2).blk t).view.emb j) 1) f)
  refine congrArg (V c main_v21) ?_
  funext a; apply Fin.ext
  match a with
  | ⟨0, _⟩ => show win4_1.index t (0 : Fin 2) * 512 + 1 * (j 1).val = win4_2.index t (1 : Fin 2) * 512 + 1 * (j 1).val; omega
  | ⟨1, _⟩ => show win4_1.index t (1 : Fin 2) * 8192 + 1 * f.val = f.val; omega

/-- An index of the array is in point `t`'s block iff each coordinate is in the block's range on its axis. -/
theorem mem_blk4 (t : Fin cfg4.N) (i : S8192x2048.Idx) :
    i ∈ ((cfg4.win 2).blk t).view.set ↔ ∀ a : Fin 2, win4_2.index t a * S256x512.size a ≤ (i a).val ∧ (i a).val < win4_2.index t a * S256x512.size a + S256x512.size a := by
  show i ∈ ((View.whole main_v23).slice (win4_2.rect t)).set ↔ _
  rw [View.set_slice_whole, Rect.mem_set_unit]
  exact Iff.rfl

/-- Every index is in some point's block: entry (r, k) is in block (r / 256, k / 512). -/
theorem cover4 (i : S8192x2048.Idx) :
    ∃ t : Fin cfg4.N, (cfg4.win 2).flush t = true ∧ i ∈ ((cfg4.win 2).blk t).view.set := by
  have hi0 : (i 0).val < 8192 := (i 0).isLt
  have hi1 : (i 1).val < 2048 := (i 1).isLt
  obtain ⟨t, ht⟩ := idx_onto4 ⟨(i 0).val / 256, by omega⟩ ⟨(i 1).val / 512, by omega⟩
  have q0 : win4_2.index t (0 : Fin 2) = (i 0).val / 256 := congrFun ht 0
  have q1 : win4_2.index t (1 : Fin 2) = (i 1).val / 512 := congrFun ht 1
  refine ⟨t, flush4_2 t, ?_⟩
  rw [mem_blk4]
  intro a
  match a with
  | ⟨0, _⟩ => show win4_2.index t (0 : Fin 2) * 256 ≤ (i 0).val ∧ (i 0).val < win4_2.index t (0 : Fin 2) * 256 + 256; omega
  | ⟨1, _⟩ => show win4_2.index t (1 : Fin 2) * 512 ≤ (i 1).val ∧ (i 1).val < win4_2.index t (1 : Fin 2) * 512 + 512; omega

/-- The array the down-projection region leaves. -/
theorem final4 (c : Dev nD)
    (hpay : ∀ (v0 : Vec Ideal S256x8192 .f32) (v19 : Vec Ideal S512x8192 .bf16) (p : Fin 256) (q : Fin 512),
      k4_pay1 (F := Ideal) v0 v19 (ix2 p q)
        = oRow (fun f : Fin 8192 => v0 (ix2 p f)) (fun (k : Fin 512) (f : Fin 8192) => v19 (ix2 k f)) q) :
    (dat4 (F := Ideal) V c).arrAt 2 cfg4.N = outOf (V c main_v22) (V c main_v21) :=
  (dat4 (F := Ideal) V c).arrAt_eq_of_cover 2 _ (fun t _ => flushed4 V c t hpay) cover4

end Cert.KernelIdeal.KValue

end
-- ==== Proof.Meet.lean ====
/-
  The function both programs compute, over the literal shapes of this kernel: activations [4, 2048, 2048], gate and up
  weights [8192, 2048], down weights [2048, 8192], result [4, 2048, 2048].  Entry (b, s, k) of the result is the
  whole block (`outRow`) on activation row (b, s), at k, each weight matrix at its own scale
  1 / max(Σ|w| / 2^24, eps).
-/
import proofs.«124648_j32409823216253_1_alg».proof.Proof.Spec

noncomputable section

namespace Cert.BitFFN

open Idealize.ShloMosaic Idealize.ShloMosaic.ValueIdx

/-- The result array as one function of the four argument arrays. -/
def G (a0 : (⟨3, ![4, 2048, 2048]⟩ : Shape).Idx → EReal) (a1 a2 : (⟨2, ![8192, 2048]⟩ : Shape).Idx → EReal)
    (a3 : (⟨2, ![2048, 8192]⟩ : Shape).Idx → EReal) : (⟨3, ![4, 2048, 2048]⟩ : Shape).Idx → EReal := fun i =>
  outRow (wscale (abssum a1)) (wscale (abssum a2)) (wscale (abssum a3))
    (fun (f : Fin 8192) (d : Fin 2048) => a1 (ix2 f d)) (fun (f : Fin 8192) (d : Fin 2048) => a2 (ix2 f d))
    (fun (k : Fin 2048) (f : Fin 8192) => a3 (ix2 k f)) (fun d : Fin 2048 => a0 (ix3 (i 0) (i 1) d)) (i 2)

/-- The same in straight-through form. -/
def GSte (a0 : (⟨3, ![4, 2048, 2048]⟩ : Shape).Idx → EReal) (a1 a2 : (⟨2, ![8192, 2048]⟩ : Shape).Idx → EReal)
    (a3 : (⟨2, ![2048, 8192]⟩ : Shape).Idx → EReal) : (⟨3, ![4, 2048, 2048]⟩ : Shape).Idx → EReal := fun i =>
  outRowSte (wscale (abssum a1)) (wscale (abssum a2)) (wscale (abssum a3))
    (fun (f : Fin 8192) (d : Fin 2048) => a1 (ix2 f d)) (fun (f : Fin 8192) (d : Fin 2048) => a2 (ix2 f d))
    (fun (k : Fin 2048) (f : Fin 8192) => a3 (ix2 k f)) (fun d : Fin 2048 => a0 (ix3 (i 0) (i 1) d)) (i 2)

end Cert.BitFFN

end
-- ==== Proof.KFinal.lean ====
/-
  The idealized kernel's result buffer is `G` of the four argument arrays.

  Read from the end: the last reshape returns the down-projection's array [8192, 2048] as [4, 2048, 2048], so entry
  (b, s, k) is the array's entry (b·2048 + s, k); that array is `oRow` of the hidden array's row against the quantised
  down weights; the hidden array is `hRow` of the flattened activations' row — which is row (b, s) of the activations —
  against the quantised gate and up weights; and each quantised matrix is `tern` of the weights at the scale its
  stretch of host operations computed.  The bodies' arithmetic at an index enters as hypotheses.
-/
import proofs.«124648_j32409823216253_1_alg».proof.Proof.KChain
import proofs.«124648_j32409823216253_1_alg».proof.Proof.KTern
import proofs.«124648_j32409823216253_1_alg».proof.Proof.KHidden
import proofs.«124648_j32409823216253_1_alg».proof.Proof.KOut
import proofs.«124648_j32409823216253_1_alg».proof.Proof.Meet

set_option maxRecDepth 16384

noncomputable section

namespace Cert.KernelIdeal.KValue

open Cert.KernelIdeal Cert.KernelIdeal.Gen Cert.BitFFN
open Idealize.ShloMosaic Idealize.ShloMosaic.TcCoe Idealize.ShloMosaic.ValueIdx Idealize.SL.Sem

/-- Row (b, s) of [4, 2048, 2048] is row b·2048 + s of [8192, 2048]. -/
def flatRow (b : Fin 4) (s : Fin 2048) : Fin 8192 := ⟨b.val * 2048 + s.val, by have := b.isLt; have := s.isLt; omega⟩

/-- [4, 2048, 2048] flattened to [8192, 2048], at a row and a lane. -/
theorem flatten_apply (x : S4x2048x2048.Idx → EReal) (h : S4x2048x2048.ShapeCasts S8192x2048) (b : Fin 4) (s : Fin 2048) (d : Fin 2048) :
    shapeCast S8192x2048 x h (ix2 (flatRow b s) d) = x (ix3 b s d) :=
  shapeCast_apply x h _ _ (by
    rw [Shape.rowMajor_val_three, Shape.rowMajor_val_two]
    show ((b.val * 2048 + s.val) * 2048 + d.val) = (b.val * 2048 + s.val) * 2048 + d.val
    rfl)

/-- [8192, 2048] unflattened to [4, 2048, 2048], at an entry. -/
theorem unflatten_apply (y : S8192x2048.Idx → EReal) (h : S8192x2048.ShapeCasts S4x2048x2048) (b : Fin 4) (s : Fin 2048) (k : Fin 2048) :
    shapeCast S4x2048x2048 y h (ix3 b s k) = y (ix2 (flatRow b s) k) :=
  shapeCast_apply y h _ _ (by
    rw [Shape.rowMajor_val_three, Shape.rowMajor_val_two]
    show (b.val * 2048 + s.val) * 2048 + k.val = ((b.val * 2048 + s.val) * 2048 + k.val)
    rfl)

variable (m : (ℓ : Loc nD τ sig) → Buf (Elt Ideal) ℓ) (ρ : Dev nD → PrngReg) (c : Dev nD)

/-- The result buffer at the last boundary is `G` of the arguments. -/
theorem kernel_value
    (hpay0 : ∀ (v0 : Vec Ideal S1x1 .f32) (v2 : Vec Ideal S1024x2048 .f32) (p : Fin 1024) (q : Fin 2048),
      k0_pay1 (F := Ideal) v0 v2 (ix2 p q) = tern (v0 (ix2 0 0)) (v2 (ix2 p q)))
    (hpay1 : ∀ (v0 : Vec Ideal S1x1 .f32) (v2 : Vec Ideal S1024x2048 .f32) (p : Fin 1024) (q : Fin 2048),
      k1_pay1 (F := Ideal) v0 v2 (ix2 p q) = tern (v0 (ix2 0 0)) (v2 (ix2 p q)))
    (hpay2 : ∀ (v0 : Vec Ideal S1x1 .f32) (v2 : Vec Ideal S256x8192 .f32) (p : Fin 256) (q : Fin 8192),
      k2_pay1 (F := Ideal) v0 v2 (ix2 p q) = tern (v0 (ix2 0 0)) (v2 (ix2 p q)))
    (hpay3 : ∀ (v0 : Vec Ideal S512x2048 .f32) (v19 v21 : Vec Ideal S1024x2048 .bf16) (p : Fin 512) (q : Fin 1024),
      k3_pay1 (F := Ideal) v0 v19 v21 (ix2 p q)
        = hRow (fun d : Fin 2048 => v0 (ix2 p d)) (fun (f : Fin 1024) (d : Fin 2048) => v19 (ix2 f d))
            (fun (f : Fin 1024) (d : Fin 2048) => v21 (ix2 f d)) q)
    (hpay4 : ∀ (v0 : Vec Ideal S256x8192 .f32) (v19 : Vec Ideal S512x8192 .bf16) (p : Fin 256) (q : Fin 512),
      k4_pay1 (F := Ideal) v0 v19 (ix2 p q)
        = oRow (fun f : Fin 8192 => v0 (ix2 p f)) (fun (k : Fin 512) (f : Fin 8192) => v19 (ix2 k f)) q) :
    (W9 m ρ c (Proc.devRef .tc main_v24) : S4x2048x2048.Idx → EReal)
      = G (m ((c : Thread nD τ).loc main_arg0)) (m ((c : Thread nD τ).loc main_arg1)) (m ((c : Thread nD τ).loc main_arg2))
          (m ((c : Thread nD τ).loc main_arg3)) := by
  -- the quantised matrices, each as its region left it
  have hwg : (V6 m ρ c main_v7 : S8192x2048.Idx → EReal)
      = fun i => tern (wscale (abssum (m ((c : Thread nD τ).loc main_arg1)))) (m ((c : Thread nD τ).loc main_arg1) i) := by
    rw [V6_v7, final0 (V1 m ρ) c hpay0, V1_scale, V1_arg1]
  have hwu : (V6 m ρ c main_v14 : S8192x2048.Idx → EReal)
      = fun i => tern (wscale (abssum (m ((c : Thread nD τ).loc main_arg2)))) (m ((c : Thread nD τ).loc main_arg2) i) := by
    rw [V6_v14, final1 (V3 m ρ) c hpay1, V3_scale, V3_arg2]
  have hwd : (V7 m ρ c main_v21 : S2048x8192.Idx → EReal)
      = fun i => tern (wscale (abssum (m ((c : Thread nD τ).loc main_arg3)))) (m ((c : Thread nD τ).loc main_arg3) i) := by
    rw [V7_v21, final2 (V5 m ρ) c hpay2, V5_scale, V5_arg3]
  have hx : (V6 m ρ c main_v0 : S8192x2048.Idx → EReal)
      = shapeCast S8192x2048 (m ((c : Thread nD τ).loc main_arg0)) shapeCasts_S4x2048x2048_S8192x2048 := by
    rw [V6_v0, V1_v0]
  have hh : (V7 m ρ c main_v22 : S8192x8192.Idx → EReal)
      = hiddenOf (V6 m ρ c main_v0) (V6 m ρ c main_v7) (V6 m ρ c main_v14) := by
    rw [V7_v22, final3 (V6 m ρ) c hpay3]
  rw [W9_v24, final4 (V7 m ρ) c hpay4, hh, hwd, hx, hwg, hwu]
  funext i
  obtain ⟨b, s, k, rfl⟩ : ∃ (b : Fin 4) (s : Fin 2048) (k : Fin 2048), i = ix3 b s k := ⟨i 0, i 1, i 2, eq_ix3 i⟩
  rw [unflatten_apply]
  unfold G outOf hiddenOf outRow
  show oRow (fun f : Fin 8192 => hRow (fun d : Fin 2048 => shapeCast S8192x2048 (m ((c : Thread nD τ).loc main_arg0)) shapeCasts_S4x2048x2048_S8192x2048 (ix2 (flatRow b s) d)) _ _ f) _ k = _
  simp only [flatten_apply]

end Cert.KernelIdeal.KValue

end
-- ==== Proof.PayTern.lean ====
/-
  The three weight-quantisation bodies read at one index.

  Each body takes the scale s as the one entry of a 1×1 block, and sends a weight w to
  min 1 (max (-1) (round (w·s))) / s, then narrows the format, which is the identity on the
  extended reals. That is the specification's `tern s w`.
-/
import proofs.«124648_j32409823216253_1_alg».proof.Proof.Gen.KernelIdeal.Skeleton
import proofs.«124648_j32409823216253_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Cert.BitFFN Idealize.ShloMosaic Idealize.ShloMosaic.ValueIdx

/-- The one entry of a 1×1 block, extracted at position (0, 0), is the block at the index (0, 0). -/
theorem extract_scalar (v0 : Vec Ideal S1x1 .f32) :
    extractAt ![0, 0] v0 inpos_S1x1_p0_0 = v0 (ix2 0 0) := by
  unfold extractAt
  refine congrArg v0 (funext fun a => ?_)
  match a with
  | ⟨0, _⟩ => rfl
  | ⟨1, _⟩ => rfl

theorem pay0 (v0 : Vec Ideal S1x1 .f32) (v2 : Vec Ideal S1024x2048 .f32) (p : Fin 1024) (q : Fin 2048) :
    k0_pay1 (F := Ideal) v0 v2 (ix2 p q) = tern (v0 (ix2 0 0)) (v2 (ix2 p q)) := by
  rw [← extract_scalar v0]
  rfl

theorem pay1 (v0 : Vec Ideal S1x1 .f32) (v2 : Vec Ideal S1024x2048 .f32) (p : Fin 1024) (q : Fin 2048) :
    k1_pay1 (F := Ideal) v0 v2 (ix2 p q) = tern (v0 (ix2 0 0)) (v2 (ix2 p q)) := by
  rw [← extract_scalar v0]
  rfl

theorem pay2 (v0 : Vec Ideal S1x1 .f32) (v2 : Vec Ideal S256x8192 .f32) (p : Fin 256) (q : Fin 8192) :
    k2_pay1 (F := Ideal) v0 v2 (ix2 p q) = tern (v0 (ix2 0 0)) (v2 (ix2 p q)) := by
  rw [← extract_scalar v0]
  rfl

end Cert.KernelIdeal.Pay

end
-- ==== Proof.PayOut.lean ====
/-
  The output body read at one index, and the lemmas about one quantised activation row that the hidden
  body shares with it.

  A row x of a block is quantised at the scale t = 127 / max (max_d |x d|) eps: the lane maximum is taken as a
  reduction over the second axis, kept as a column [a, 1], and broadcast back along the lanes. Read at
  (p, f) this is the specification's `aq` of row p at f. The contraction against an already quantised
  weight block, over the one lane axis of both operands and into a zero accumulator, is then the
  specification's `dot`, so the output body at (p, q) is `oRow` of row p at q.
-/
import proofs.«124648_j32409823216253_1_alg».proof.Proof.Gen.KernelIdeal.Skeleton
import proofs.«124648_j32409823216253_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Cert.BitFFN Idealize.ShloMosaic Idealize.ShloMosaic.ValueIdx

variable {α : Type}

/-! ## The two keepdims re-indexings, read at an index -/

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane maximum of the absolute values of a row -/

/-- The index of `[a, b]` over row `p` with lane `d` inserted is `(p, d)`. -/
theorem lift_row {a b : ℕ} (h : (⟨2, ![a, b]⟩ : Shape).Reduces [1] ⟨1, ![a]⟩) (p : Fin a) (d : Fin b) :
    h.lift (ix1 p) d = ix2 p d := by
  funext c
  match c with
  | ⟨0, _⟩ => rfl
  | ⟨1, _⟩ => rfl

/-- The maximum over the lanes of `|x|`, from the start value `-∞`, at row `p`, is the specification's
    `rowmax` of that row. -/
theorem rowmax_apply {a b : ℕ} (x : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ (absf x) 0xFF800000#32 h hφ hacc (ix1 p)
      = rowmax (fun d : Fin b => x (ix2 p d)) := by
  refine (Ideal.multiReduction_maximumf_single (absf x) _ h hφ hacc (ix1 p)).trans ?_
  show (Finset.univ : Finset (Fin b)).fold max ninf (fun d : Fin b => absf x (h.lift (ix1 p) d)) = _
  unfold rowmax
  refine Finset.fold_congr fun d _ => ?_
  rw [lift_row h p d]
  rfl

/-! ## The row scale and the quantised block, read at an index -/

/-- The scale column `127 / max (rowmax |x|) eps`, kept as `[a, 1]` and broadcast along the lanes, reads at
    `(p, f)` the specification's `ascale` of row `p`'s `rowmax`. -/
theorem scale_apply {a b : ℕ} (x : FVec Ideal ⟨2, ![a, b]⟩ .f32)
    (hr : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (f : Fin b) :
    broadcastTo ⟨2, ![a, b]⟩
        (divf (broadcast ⟨2, ![a, 1]⟩ (Scalar.ofBits (F := Ideal) .f32 0x42FE0000#32))
          (maximumf (shapeCast ⟨2, ![a, 1]⟩ (multiReduction .maximumf [1] ⟨1, ![a]⟩ (absf x) 0xFF800000#32 hr hφ hacc) hc)
            (broadcast ⟨2, ![a, 1]⟩ (Scalar.ofBits (F := Ideal) .f32 0x3727C5AC#32)))) hb (ix2 p f)
      = ascale (rowmax (fun d : Fin b => x (ix2 p d))) := by
  refine (broadcastTo_a1_ab_apply _ hb p f).trans ?_
  show Ideal.div c127 (max (shapeCast ⟨2, ![a, 1]⟩ (multiReduction .maximumf [1] ⟨1, ![a]⟩ (absf x) 0xFF800000#32 hr hφ hacc) hc
      (ix2 p (0 : Fin 1))) eps) = _
  rw [shapeCast_a_a1_apply _ hc p 0, rowmax_apply x hr hφ hacc p]
  rfl

/-- One entry quantised against a scale block `B`: every operation is pointwise, and the narrowing is the
    identity, so the entry at `i` is the specification's `int8 (B i) (x i)`. -/
theorem int8_pointwise {s : Shape} (x B : FVec Ideal s .f32) (hbits : FTy.bits .bf16 < FTy.bits .f32) (i : s.Idx) :
    (truncf .bf16
      (divf
        (minimumf (broadcast s (Scalar.ofBits (F := Ideal) .f32 0x42FE0000#32))
          (maximumf (broadcast s (Scalar.ofBits (F := Ideal) .f32 0xC3000000#32)) (roundeven (mulf x B))))
        B) hbits : FVec Ideal s .bf16) i
      = int8 (B i) (x i) := rfl

/-- The row-quantised block at `(p, f)` is the specification's quantised row `p` at `f`. -/
theorem quant_apply {a b : ℕ} (x : FVec Ideal ⟨2, ![a, b]⟩ .f32)
    (hr : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (hbits : FTy.bits .bf16 < FTy.bits .f32) (p : Fin a) (f : Fin b) :
    (truncf .bf16
      (divf
        (minimumf (broadcast ⟨2, ![a, b]⟩ (Scalar.ofBits (F := Ideal) .f32 0x42FE0000#32))
          (maximumf (broadcast ⟨2, ![a, b]⟩ (Scalar.ofBits (F := Ideal) .f32 0xC3000000#32))
            (roundeven (mulf x
              (broadcastTo ⟨2, ![a, b]⟩
                (divf (broadcast ⟨2, ![a, 1]⟩ (Scalar.ofBits (F := Ideal) .f32 0x42FE0000#32))
                  (maximumf (shapeCast ⟨2, ![a, 1]⟩ (multiReduction .maximumf [1] ⟨1, ![a]⟩ (absf x) 0xFF800000#32 hr hφ hacc) hc)
                    (broadcast ⟨2, ![a, 1]⟩ (Scalar.ofBits (F := Ideal) .f32 0x3727C5AC#32)))) hb)))))
        (broadcastTo ⟨2, ![a, b]⟩
          (divf (broadcast ⟨2, ![a, 1]⟩ (Scalar.ofBits (F := Ideal) .f32 0x42FE0000#32))
            (maximumf (shapeCast ⟨2, ![a, 1]⟩ (multiReduction .maximumf [1] ⟨1, ![a]⟩ (absf x) 0xFF800000#32 hr hφ hacc) hc)
              (broadcast ⟨2, ![a, 1]⟩ (Scalar.ofBits (F := Ideal) .f32 0x3727C5AC#32)))) hb)) hbits
        : FVec Ideal ⟨2, ![a, b]⟩ .bf16) (ix2 p f)
      = aq (fun d : Fin b => x (ix2 p d)) f := by
  refine (int8_pointwise x _ hbits (ix2 p f)).trans ?_
  rw [scale_apply x hr hφ hacc hc hb p f]
  rfl

/-! ## The output body -/

/-- The left operand's row coordinate is the output's row coordinate. -/
theorem lhs4_0 (i : S256x512.Idx) (k : dot_S256x8192_S512x8192_S256x512_1_1_0_0_n_n.contr.Idx) : (dot_S256x8192_S512x8192_S256x512_1_1_0_0_n_n.lhsIdx i k 0).val = (i 0).val := by
  unfold DotDims.lhsIdx
  rw [dif_neg (show ¬(0 : Fin S256x8192.rank) ∈ dot_S256x8192_S512x8192_S256x512_1_1_0_0_n_n.lhsBatch by decide),
    dif_pos (show (0 : Fin S256x8192.rank) ∈ dot_S256x8192_S512x8192_S256x512_1_1_0_0_n_n.lhsNonContracting by decide)]
  rfl

/-- The right operand's row coordinate is the output's column coordinate. -/
theorem rhs4_0 (i : S256x512.Idx) (k : dot_S256x8192_S512x8192_S256x512_1_1_0_0_n_n.contr.Idx) : (dot_S256x8192_S512x8192_S256x512_1_1_0_0_n_n.rhsIdx i k 0).val = (i 1).val := by
  unfold DotDims.rhsIdx
  rw [dif_neg (show ¬(0 : Fin S512x8192.rank) ∈ dot_S256x8192_S512x8192_S256x512_1_1_0_0_n_n.rhsBatch by decide),
    dif_pos (show (0 : Fin S512x8192.rank) ∈ dot_S256x8192_S512x8192_S256x512_1_1_0_0_n_n.rhsNonContracting by decide)]
  rfl

/-- At output `(p, q)` and lane `k` the left operand of the contraction is read at `(p, k)` … -/
theorem lhs4 (p : Fin 256) (q : Fin 512) (k : Fin 8192) :
    dot_S256x8192_S512x8192_S256x512_1_1_0_0_n_n.lhsIdx (ix2 p q) ((contrEquiv1 dot_S256x8192_S512x8192_S256x512_1_1_0_0_n_n 8192 rfl rfl).symm k) = ix2 p k := by
  funext c
  refine Fin.ext ?_
  match c with
  | ⟨0, _⟩ => exact lhs4_0 _ _
  | ⟨1, _⟩ =>
    exact (dot_S256x8192_S512x8192_S256x512_1_1_0_0_n_n.lhsIdx_val_of_single rfl (ix2 p q) _).trans (contrEquiv1_symm_val dot_S256x8192_S512x8192_S256x512_1_1_0_0_n_n 8192 rfl rfl k)

/-- … and the right operand at `(q, k)`. -/
theorem rhs4 (p : Fin 256) (q : Fin 512) (k : Fin 8192) :
    dot_S256x8192_S512x8192_S256x512_1_1_0_0_n_n.rhsIdx (ix2 p q) ((contrEquiv1 dot_S256x8192_S512x8192_S256x512_1_1_0_0_n_n 8192 rfl rfl).symm k) = ix2 q k := by
  funext c
  refine Fin.ext ?_
  match c with
  | ⟨0, _⟩ => exact rhs4_0 _ _
  | ⟨1, _⟩ =>
    exact (dot_S256x8192_S512x8192_S256x512_1_1_0_0_n_n.rhsIdx_val_of_single rfl (ix2 p q) _).trans (contrEquiv1_symm_val dot_S256x8192_S512x8192_S256x512_1_1_0_0_n_n 8192 rfl rfl k)

theorem pay4 (v0 : Vec Ideal S256x8192 .f32) (v19 : Vec Ideal S512x8192 .bf16) (p : Fin 256) (q : Fin 512) :
    k4_pay1 (F := Ideal) v0 v19 (ix2 p q)
      = oRow (fun f : Fin 8192 => v0 (ix2 p f)) (fun (k : Fin 512) (f : Fin 8192) => v19 (ix2 k f)) q := by
  unfold k4_pay1
  simp only [shapeCast_self]
  refine Eq.trans (Ideal.matmul_constant_zero_apply _ _ _ _ _) ?_
  rw [← Equiv.sum_comp (contrEquiv1 dot_S256x8192_S512x8192_S256x512_1_1_0_0_n_n 8192 rfl rfl).symm]
  unfold oRow dot
  refine Finset.sum_congr rfl fun k _ => ?_
  rw [lhs4 p q k, rhs4 p q k]
  exact congrArg (· * v19 (ix2 q k))
    (quant_apply v0 reduces_S256x8192_S256 (.inl rfl) rfl shapeCasts_S256_S256x1 broadcasts_S256x1_S256x8192
      bitsLt_bf16_f32 p k)

end Cert.KernelIdeal.Pay

end
-- ==== Proof.PayHidden.lean ====
/-
  The hidden body read at one index.

  The activation block is quantised row by row (the lemmas about one quantised row are shared with the output
  body); the two contractions against the already quantised gate and up weight blocks, each into a zero
  accumulator, are the specification's `dot` of the quantised row with a weight row; the body is
  max gate 0 · up, the specification's `hRow`.
-/
import proofs.«124648_j32409823216253_1_alg».proof.Proof.Gen.KernelIdeal.Skeleton
import proofs.«124648_j32409823216253_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«124648_j32409823216253_1_alg».proof.Proof.PayOut

noncomputable section

open scoped BigOperators

namespace Cert.KernelIdeal.Pay

open Cert.KernelIdeal Cert.KernelIdeal.Gen Cert.BitFFN Idealize.ShloMosaic Idealize.ShloMosaic.ValueIdx

/-! ## The contraction of the hidden body -/

/-- The left operand's row coordinate is the output's row coordinate. -/
theorem lhs3_0 (i : S512x1024.Idx) (k : dot_S512x2048_S1024x2048_S512x1024_1_1_0_0_n_n.contr.Idx) : (dot_S512x2048_S1024x2048_S512x1024_1_1_0_0_n_n.lhsIdx i k 0).val = (i 0).val := by
  unfold DotDims.lhsIdx
  rw [dif_neg (show ¬(0 : Fin S512x2048.rank) ∈ dot_S512x2048_S1024x2048_S512x1024_1_1_0_0_n_n.lhsBatch by decide),
    dif_pos (show (0 : Fin S512x2048.rank) ∈ dot_S512x2048_S1024x2048_S512x1024_1_1_0_0_n_n.lhsNonContracting by decide)]
  rfl

/-- The right operand's row coordinate is the output's column coordinate. -/
theorem rhs3_0 (i : S512x1024.Idx) (k : dot_S512x2048_S1024x2048_S512x1024_1_1_0_0_n_n.contr.Idx) : (dot_S512x2048_S1024x2048_S512x1024_1_1_0_0_n_n.rhsIdx i k 0).val = (i 1).val := by
  unfold DotDims.rhsIdx
  rw [dif_neg (show ¬(0 : Fin S1024x2048.rank) ∈ dot_S512x2048_S1024x2048_S512x1024_1_1_0_0_n_n.rhsBatch by decide),
    dif_pos (show (0 : Fin S1024x2048.rank) ∈ dot_S512x2048_S1024x2048_S512x1024_1_1_0_0_n_n.rhsNonContracting by decide)]
  rfl

/-- At output `(p, q)` and lane `k` the left operand of the contraction is read at `(p, k)` … -/
theorem lhs3 (p : Fin 512) (q : Fin 1024) (k : Fin 2048) :
    dot_S512x2048_S1024x2048_S512x1024_1_1_0_0_n_n.lhsIdx (ix2 p q) ((contrEquiv1 dot_S512x2048_S1024x2048_S512x1024_1_1_0_0_n_n 2048 rfl rfl).symm k) = ix2 p k := by
  funext c
  refine Fin.ext ?_
  match c with
  | ⟨0, _⟩ => exact lhs3_0 _ _
  | ⟨1, _⟩ =>
    exact (dot_S512x2048_S1024x2048_S512x1024_1_1_0_0_n_n.lhsIdx_val_of_single rfl (ix2 p q) _).trans (contrEquiv1_symm_val dot_S512x2048_S1024x2048_S512x1024_1_1_0_0_n_n 2048 rfl rfl k)

/-- … and the right operand at `(q, k)`. -/
theorem rhs3 (p : Fin 512) (q : Fin 1024) (k : Fin 2048) :
    dot_S512x2048_S1024x2048_S512x1024_1_1_0_0_n_n.rhsIdx (ix2 p q) ((contrEquiv1 dot_S512x2048_S1024x2048_S512x1024_1_1_0_0_n_n 2048 rfl rfl).symm k) = ix2 q k := by
  funext c
  refine Fin.ext ?_
  match c with
  | ⟨0, _⟩ => exact rhs3_0 _ _
  | ⟨1, _⟩ =>
    exact (dot_S512x2048_S1024x2048_S512x1024_1_1_0_0_n_n.rhsIdx_val_of_single rfl (ix2 p q) _).trans (contrEquiv1_symm_val dot_S512x2048_S1024x2048_S512x1024_1_1_0_0_n_n 2048 rfl rfl k)

/-- The contraction into the zero accumulator, at `(p, q)`, of a left block whose row `p` is `r` against a
    right block `w`: the inner product of `r` with row `q` of `w`. -/
theorem mm3 (L : FVec Ideal S512x2048 .bf16) (w : FVec Ideal S1024x2048 .bf16) (p : Fin 512) (q : Fin 1024)
    (r : Fin 2048 → EReal) (hL : ∀ d : Fin 2048, L (ix2 p d) = r d) :
    matmul dot_S512x2048_S1024x2048_S512x1024_1_1_0_0_n_n none L w (constant S512x1024 .f32 0x00000000#32) (ix2 p q)
      = dot r (fun d : Fin 2048 => w (ix2 q d)) := by
  refine Eq.trans (Ideal.matmul_constant_zero_apply _ _ _ _ _) ?_
  rw [← Equiv.sum_comp (contrEquiv1 dot_S512x2048_S1024x2048_S512x1024_1_1_0_0_n_n 2048 rfl rfl).symm]
  unfold dot
  refine Finset.sum_congr rfl fun k _ => ?_
  rw [lhs3 p q k, rhs3 p q k, hL k]

/-! ## The hidden body -/

theorem pay3 (v0 : Vec Ideal S512x2048 .f32) (v19 v21 : Vec Ideal S1024x2048 .bf16) (p : Fin 512) (q : Fin 1024) :
    k3_pay1 (F := Ideal) v0 v19 v21 (ix2 p q)
      = hRow (fun d : Fin 2048 => v0 (ix2 p d)) (fun (f : Fin 1024) (d : Fin 2048) => v19 (ix2 f d))
          (fun (f : Fin 1024) (d : Fin 2048) => v21 (ix2 f d)) q := by
  unfold k3_pay1
  simp only [shapeCast_self]
  have hL := fun d : Fin 2048 =>
    quant_apply v0 reduces_S512x2048_S512 (.inl rfl) rfl shapeCasts_S512_S512x1 broadcasts_S512x1_S512x2048
      bitsLt_bf16_f32 p d
  refine Eq.trans (mulf_apply _ _ _) ?_
  unfold hRow
  refine congrArg₂ (· * ·) ?_ (mm3 _ v21 p q _ hL)
  refine Eq.trans (maximumf_apply _ _ _) ?_
  exact congrArg₂ max (mm3 _ v19 p q _ hL) rfl

end Cert.KernelIdeal.Pay

end
-- ==== Proof.RefHidden.lean ====
/-
  The first half of the reference program, read at an index.

  The reference quantises an activation row to the integers -128..127 over one scale per row (the scale
  from the row's largest absolute value), a weight matrix to {-1, 0, 1} over one scale per matrix (the scale
  from the mean absolute value), enters each quantised value q of an entry v as v + (q - v), and contracts
  rows against rows.  Here each of its buffers up to the hidden activation
      relu(bitlinear(x, w_gate)) * bitlinear(x, w_up)
  is read at an index and identified with the shared specification's row functions.
-/
import proofs.«124648_j32409823216253_1_alg».proof.Proof.Gen.ReferenceIdeal.Read
import proofs.«124648_j32409823216253_1_alg».proof.Proof.Spec
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.Read Cert.BitFFN Idealize.ShloMosaic Idealize.ShloMosaic.ValueIdx

/-! ## The row maximum -/

/-- The reduced index (b, s) with the coordinate `k` put back on the last axis is (b, s, k). -/
theorem lift_ix3_act (h : S4x2048x2048.Reduces [2] S4x2048) (b : Fin 4) (s : Fin 2048)
    (k : Fin (S4x2048x2048.size 2)) : h.lift (ix2 b s) k = ix3 b s (⟨k.val, k.isLt⟩ : Fin 2048) := by
  funext c; apply Fin.ext
  fin_cases c <;> rfl

/-- A maximum-bodied reduction over the last axis: at (b, s) it is the fold of `max`, from the start value,
    over the row (b, s, ·). -/
theorem reduce_max_row_act (y : S4x2048x2048.Idx → EReal) (init : S_.Idx → EReal) (b : Fin 4) (s : Fin 2048) :
    Host.reduce (FloatOps.maximumf (F := Ideal) (φ := .f32)) y init reducesTo_S4x2048x2048_S4x2048_d2 h_S_ (ix2 b s)
      = (Finset.univ : Finset (Fin 2048)).fold max (init (Shape.Idx.first h_S_)) (fun d : Fin 2048 => y (ix3 b s d)) := by
  have h : S4x2048x2048.Reduces [2] S4x2048 := by decide
  rw [Host.reduce_eq_fold_single (FloatOps.maximumf (F := Ideal) (φ := .f32)) y init reducesTo_S4x2048x2048_S4x2048_d2 h h_S_]
  have hf : (y ∘ h.lift (ix2 b s)) = fun d : Fin 2048 => y (ix3 b s d) :=
    funext fun k => congrArg y (lift_ix3_act h b s k)
  exact congrArg (fun f => Finset.fold max (init (Shape.Idx.first h_S_)) f (Finset.univ : Finset (Fin 2048))) hf

/-- The first row maximum of the program at (b, s) is the row's `rowmax`. -/
theorem v1_apply (x0 : (⟨S4x2048x2048, .f32⟩ : BufTy).Contents (Elt Ideal)) (b : Fin 4) (s : Fin 2048) :
    val_main_v1 (F := Ideal) x0 (ix2 b s) = rowmax (fun d : Fin 2048 => x0 (ix3 b s d)) :=
  reduce_max_row_act _ _ b s

/-- The second row maximum of the program (the same text) at (b, s) is the row's `rowmax`. -/
theorem v31_apply (x0 : (⟨S4x2048x2048, .f32⟩ : BufTy).Contents (Elt Ideal)) (b : Fin 4) (s : Fin 2048) :
    val_main_v31 (F := Ideal) x0 (ix2 b s) = rowmax (fun d : Fin 2048 => x0 (ix3 b s d)) :=
  reduce_max_row_act _ _ b s

/-! ## The activation row, quantised, in straight-through form -/

/-- The row's scale, broadcast along the row (first copy of the text). -/
theorem v7_apply (x0 : (⟨S4x2048x2048, .f32⟩ : BufTy).Contents (Elt Ideal)) (b : Fin 4) (s : Fin 2048) (d : Fin 2048) :
    val_main_v7 (F := Ideal) x0 (ix3 b s d) = ascale (rowmax (fun d : Fin 2048 => x0 (ix3 b s d))) := by
  have e : idx_main_v2 (idx_main_v7 (ix3 b s d)) = ix2 b s :=
    funext fun a => Fin.ext (by match a with | ⟨0, _⟩ => rfl | ⟨1, _⟩ => rfl)
  rw [val_main_v7_apply, val_main_v6_apply, val_main_v5_apply, val_main_cst_1_apply, val_main_v4_apply,
    val_main_v2_apply, val_main_v3_apply, val_main_cst_0_apply, e, v1_apply]
  simp only [Ideal.hostDivf_def, Ideal.maximumf_def, Ideal.ofBits_def]
  unfold ascale c127 eps
  rfl

/-- The row's scale, broadcast along the row a second time (first copy of the text). -/
theorem v11_apply (x0 : (⟨S4x2048x2048, .f32⟩ : BufTy).Contents (Elt Ideal)) (b : Fin 4) (s : Fin 2048) (d : Fin 2048) :
    val_main_v11 (F := Ideal) x0 (ix3 b s d) = ascale (rowmax (fun d : Fin 2048 => x0 (ix3 b s d))) := by
  have e : idx_main_v2 (idx_main_v11 (ix3 b s d)) = ix2 b s :=
    funext fun a => Fin.ext (by match a with | ⟨0, _⟩ => rfl | ⟨1, _⟩ => rfl)
  rw [val_main_v11_apply, val_main_v6_apply, val_main_v5_apply, val_main_cst_1_apply, val_main_v4_apply,
    val_main_v2_apply, val_main_v3_apply, val_main_cst_0_apply, e, v1_apply]
  simp only [Ideal.hostDivf_def, Ideal.maximumf_def, Ideal.ofBits_def]
  unfold ascale c127 eps
  rfl

/-- The row's scale, broadcast along the row (second copy of the text). -/
theorem v37_apply (x0 : (⟨S4x2048x2048, .f32⟩ : BufTy).Contents (Elt Ideal)) (b : Fin 4) (s : Fin 2048) (d : Fin 2048) :
    val_main_v37 (F := Ideal) x0 (ix3 b s d) = ascale (rowmax (fun d : Fin 2048 => x0 (ix3 b s d))) := by
  have e : idx_main_v32 (idx_main_v37 (ix3 b s d)) = ix2 b s :=
    funext fun a => Fin.ext (by match a with | ⟨0, _⟩ => rfl | ⟨1, _⟩ => rfl)
  rw [val_main_v37_apply, val_main_v36_apply, val_main_v35_apply, val_main_cst_12_apply, val_main_v34_apply,
    val_main_v32_apply, val_main_v33_apply, val_main_cst_11_apply, e, v31_apply]
  simp only [Ideal.hostDivf_def, Ideal.maximumf_def, Ideal.ofBits_def]
  unfold ascale c127 eps
  rfl

/-- The row's scale, broadcast along the row a second time (second copy of the text). -/
theorem v41_apply (x0 : (⟨S4x2048x2048, .f32⟩ : BufTy).Contents (Elt Ideal)) (b : Fin 4) (s : Fin 2048) (d : Fin 2048) :
    val_main_v41 (F := Ideal) x0 (ix3 b s d) = ascale (rowmax (fun d : Fin 2048 => x0 (ix3 b s d))) := by
  have e : idx_main_v32 (idx_main_v41 (ix3 b s d)) = ix2 b s :=
    funext fun a => Fin.ext (by match a with | ⟨0, _⟩ => rfl | ⟨1, _⟩ => rfl)
  rw [val_main_v41_apply, val_main_v36_apply, val_main_v35_apply, val_main_cst_12_apply, val_main_v34_apply,
    val_main_v32_apply, val_main_v33_apply, val_main_cst_11_apply, e, v31_apply]
  simp only [Ideal.hostDivf_def, Ideal.maximumf_def, Ideal.ofBits_def]
  unfold ascale c127 eps
  rfl

/-- The activation entry (b, s, d) as the gate contraction takes it: its quantised value in straight-through form. -/
theorem v14_apply (x0 : (⟨S4x2048x2048, .f32⟩ : BufTy).Contents (Elt Ideal)) (b : Fin 4) (s : Fin 2048) (d : Fin 2048) :
    val_main_v14 (F := Ideal) x0 (ix3 b s d)
      = ste (aq (fun d : Fin 2048 => x0 (ix3 b s d)) d) (x0 (ix3 b s d)) := by
  rw [val_main_v14_apply, val_main_v13_apply, val_main_v12_apply, val_main_v10_apply,
    val_main_call1_v4_apply, val_main_call1_v3_apply, val_main_cst_3_apply,
    val_main_call1_v2_apply, val_main_call1_v1_apply, val_main_call1_v0_apply, val_main_cst_2_apply,
    val_main_v9_apply, val_main_v8_apply, v7_apply, v11_apply]
  simp only [Ideal.addf_def, Ideal.subf_def, Ideal.hostDivf_def, Ideal.minimumf_def, Ideal.maximumf_def,
    Ideal.hostUnary_roundeven_def, Ideal.mulf_def, Ideal.ofBits_def]
  unfold ste aq int8 rnd c127 cm128
  rfl

/-- The activation entry (b, s, d) as the up contraction takes it: the same value. -/
theorem v44_apply (x0 : (⟨S4x2048x2048, .f32⟩ : BufTy).Contents (Elt Ideal)) (b : Fin 4) (s : Fin 2048) (d : Fin 2048) :
    val_main_v44 (F := Ideal) x0 (ix3 b s d)
      = ste (aq (fun d : Fin 2048 => x0 (ix3 b s d)) d) (x0 (ix3 b s d)) := by
  rw [val_main_v44_apply, val_main_v43_apply, val_main_v42_apply, val_main_v40_apply,
    val_main_call6_v4_apply, val_main_call6_v3_apply, val_main_cst_14_apply,
    val_main_call6_v2_apply, val_main_call6_v1_apply, val_main_call6_v0_apply, val_main_cst_13_apply,
    val_main_v39_apply, val_main_v38_apply, v37_apply, v41_apply]
  simp only [Ideal.addf_def, Ideal.subf_def, Ideal.hostDivf_def, Ideal.minimumf_def, Ideal.maximumf_def,
    Ideal.hostUnary_roundeven_def, Ideal.mulf_def, Ideal.ofBits_def]
  unfold ste aq int8 rnd c127 cm128
  rfl

/-! ## The weight matrices, quantised, in straight-through form -/

/-- The gate matrix's scale, from the sum of its absolute values. -/
theorem v19_apply (x1 : (⟨S8192x2048, .f32⟩ : BufTy).Contents (Elt Ideal)) (j : S_.Idx) :
    val_main_v19 (F := Ideal) x1 j = wscale (abssum x1) := by
  rw [val_main_v19_apply, val_main_cst_7_apply, val_main_v18_apply, val_main_v17_apply, val_main_v16_apply,
    val_main_cst_4_apply, val_main_cst_5_apply, val_main_cst_6_apply]
  simp only [val_main_v15_apply, Ideal.hostDivf_def, Ideal.maximumf_def, Ideal.ofBits_def, Ideal.hostAbsf_def,
    Ideal.absf_def]
  unfold wscale abssum c1 n24 eps c0
  rfl

/-- The up matrix's scale, from the sum of its absolute values. -/
theorem v49_apply (x2 : (⟨S8192x2048, .f32⟩ : BufTy).Contents (Elt Ideal)) (j : S_.Idx) :
    val_main_v49 (F := Ideal) x2 j = wscale (abssum x2) := by
  rw [val_main_v49_apply, val_main_cst_18_apply, val_main_v48_apply, val_main_v47_apply, val_main_v46_apply,
    val_main_cst_15_apply, val_main_cst_16_apply, val_main_cst_17_apply]
  simp only [val_main_v45_apply, Ideal.hostDivf_def, Ideal.maximumf_def, Ideal.ofBits_def, Ideal.hostAbsf_def,
    Ideal.absf_def]
  unfold wscale abssum c1 n24 eps c0
  rfl

/-- A gate weight as the contraction takes it: its ternary value in straight-through form. -/
theorem v27_apply (x1 : (⟨S8192x2048, .f32⟩ : BufTy).Contents (Elt Ideal)) (i : S8192x2048.Idx) :
    val_main_v27 (F := Ideal) x1 i = ste (tern (wscale (abssum x1)) (x1 i)) (x1 i) := by
  rw [val_main_v27_apply, val_main_v26_apply, val_main_v25_apply, val_main_v23_apply,
    val_main_call3_v4_apply, val_main_call3_v3_apply, val_main_cst_9_apply,
    val_main_call3_v2_apply, val_main_call3_v1_apply, val_main_call3_v0_apply, val_main_cst_8_apply,
    val_main_v22_apply, val_main_v21_apply, val_main_v20_apply, val_main_v24_apply, v19_apply]
  simp only [Ideal.addf_def, Ideal.subf_def, Ideal.hostDivf_def, Ideal.minimumf_def, Ideal.maximumf_def,
    Ideal.hostUnary_roundeven_def, Ideal.mulf_def, Ideal.ofBits_def]
  unfold ste tern rnd c1 cm1
  rfl

/-- An up weight as the contraction takes it: its ternary value in straight-through form. -/
theorem v57_apply (x2 : (⟨S8192x2048, .f32⟩ : BufTy).Contents (Elt Ideal)) (i : S8192x2048.Idx) :
    val_main_v57 (F := Ideal) x2 i = ste (tern (wscale (abssum x2)) (x2 i)) (x2 i) := by
  rw [val_main_v57_apply, val_main_v56_apply, val_main_v55_apply, val_main_v53_apply,
    val_main_call8_v4_apply, val_main_call8_v3_apply, val_main_cst_20_apply,
    val_main_call8_v2_apply, val_main_call8_v1_apply, val_main_call8_v0_apply, val_main_cst_19_apply,
    val_main_v52_apply, val_main_v51_apply, val_main_v50_apply, val_main_v54_apply, v49_apply]
  simp only [Ideal.addf_def, Ideal.subf_def, Ideal.hostDivf_def, Ideal.minimumf_def, Ideal.maximumf_def,
    Ideal.hostUnary_roundeven_def, Ideal.mulf_def, Ideal.ofBits_def]
  unfold ste tern rnd c1 cm1
  rfl

/-! ## The two contractions and the hidden activation -/

/-- The gate contraction at (b, s, f): the inner product of the quantised activation row (b, s) and the quantised gate row f. -/
theorem v28_apply (x0 : (⟨S4x2048x2048, .f32⟩ : BufTy).Contents (Elt Ideal)) (x1 : (⟨S8192x2048, .f32⟩ : BufTy).Contents (Elt Ideal)) (b : Fin 4) (s : Fin 2048) (f : Fin 8192) :
    val_main_v28 (F := Ideal) x0 x1 (ix3 b s f)
      = dot (fun d : Fin 2048 => ste (aq (fun d : Fin 2048 => x0 (ix3 b s d)) d) (x0 (ix3 b s d)))
          (fun d : Fin 2048 => ste (tern (wscale (abssum x1)) (x1 (ix2 f d))) (x1 (ix2 f d))) := by
  rw [val_main_v28_apply]
  unfold dot
  refine Finset.sum_congr rfl fun k _ => ?_
  have el : lidx_main_v28 (ix3 b s f) k = ix3 b s k :=
    funext fun a => Fin.ext (by match a with | ⟨0, _⟩ => rfl | ⟨1, _⟩ => rfl | ⟨2, _⟩ => rfl)
  have er : ridx_main_v28 (ix3 b s f) k = ix2 f k :=
    funext fun a => Fin.ext (by match a with | ⟨0, _⟩ => rfl | ⟨1, _⟩ => rfl)
  rw [el, er, v14_apply, v27_apply]

/-- The up contraction at (b, s, f): the inner product of the quantised activation row (b, s) and the quantised up row f. -/
theorem v58_apply (x0 : (⟨S4x2048x2048, .f32⟩ : BufTy).Contents (Elt Ideal)) (x2 : (⟨S8192x2048, .f32⟩ : BufTy).Contents (Elt Ideal)) (b : Fin 4) (s : Fin 2048) (f : Fin 8192) :
    val_main_v58 (F := Ideal) x0 x2 (ix3 b s f)
      = dot (fun d : Fin 2048 => ste (aq (fun d : Fin 2048 => x0 (ix3 b s d)) d) (x0 (ix3 b s d)))
          (fun d : Fin 2048 => ste (tern (wscale (abssum x2)) (x2 (ix2 f d))) (x2 (ix2 f d))) := by
  rw [val_main_v58_apply]
  unfold dot
  refine Finset.sum_congr rfl fun k _ => ?_
  have el : lidx_main_v58 (ix3 b s f) k = ix3 b s k :=
    funext fun a => Fin.ext (by match a with | ⟨0, _⟩ => rfl | ⟨1, _⟩ => rfl | ⟨2, _⟩ => rfl)
  have er : ridx_main_v58 (ix3 b s f) k = ix2 f k :=
    funext fun a => Fin.ext (by match a with | ⟨0, _⟩ => rfl | ⟨1, _⟩ => rfl)
  rw [el, er, v44_apply, v57_apply]

/-- The hidden activation at (b, s, f): the gate contraction clamped below at zero, times the up contraction — the
    shared specification's hidden row, in straight-through form, of the activation row (b, s). -/
theorem hidden_apply (x0 : (⟨S4x2048x2048, .f32⟩ : BufTy).Contents (Elt Ideal)) (x1 x2 : (⟨S8192x2048, .f32⟩ : BufTy).Contents (Elt Ideal)) (b : Fin 4) (s : Fin 2048) (f : Fin 8192) :
    val_main_v59 (F := Ideal) x0 x1 x2 (ix3 b s f)
      = hRowSte (wscale (abssum x1)) (wscale (abssum x2)) (fun (f : Fin 8192) (d : Fin 2048) => x1 (ix2 f d))
          (fun (f : Fin 8192) (d : Fin 2048) => x2 (ix2 f d)) (fun d : Fin 2048 => x0 (ix3 b s d)) f := by
  rw [val_main_v59_apply, val_main_v29_apply, val_main_call4_v0_apply, val_main_call4_cst_apply, v28_apply, v58_apply]
  simp only [Ideal.mulf_def, Ideal.maximumf_def, Ideal.ofBits_def]
  unfold hRowSte c0
  rfl

end Cert.ReferenceIdeal.RefValue

end
-- ==== Proof.RefOut.lean ====
/-
  The second half of the reference program, read at an index.

  With h the hidden activation (an array over (b, s, f), f < 8192, taken here as given) and w the
  down-projection weights (an array over (k, f)), the reference's result at (b, s, k) is

      Σ_f  ste (aq (h b s ·) f) (h b s f) · ste (tern sd (w k f)) (w k f),     sd = wscale (c0 + Σ |w|),

  the inner product over f of row (b, s) of h, quantised at that row's own scale, with row k of w,
  quantised at the one scale of the whole matrix, both in straight-through form x + (q − x).

  Three readings make it up: the row maximum (a maximum-bodied reduction over the last axis is the
  fold of max over that axis's coordinates), the activation operand at (b, s, f), and the weight
  operand at (k, f).  The hidden activation is never opened.
-/
import proofs.«124648_j32409823216253_1_alg».proof.Proof.Gen.ReferenceIdeal.Read
import proofs.«124648_j32409823216253_1_alg».proof.Proof.Spec
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.Read Cert.BitFFN Idealize.ShloMosaic Idealize.ShloMosaic.ValueIdx

/-! ## The row maximum -/

/-- The reduced index (b, s) with coordinate f put back on the last axis is (b, s, f). -/
theorem lift_ix3 (h : S4x2048x8192.Reduces [2] S4x2048) (b : Fin 4) (s : Fin 2048) (f : Fin 8192) :
    h.lift (ix2 b s) f = ix3 b s f := by
  funext c; apply Fin.ext
  fin_cases c <;> rfl

/-- The maximum-bodied reduction over the last axis of the absolute values of an array, read at row (b, s),
    is the running maximum of that row's absolute values from the start value: max is commutative and
    associative, so the order the reduction folds in does not matter. -/
theorem rowmax_reduce (hh : FVec Ideal S4x2048x8192 .f32) (b : Fin 4) (s : Fin 2048) :
    Host.reduce (FloatOps.maximumf (F := Ideal) (φ := .f32)) (Host.absf (F := Ideal) (φ := .f32) hh) (val_main_cst_21 (F := Ideal)) reducesTo_S4x2048x8192_S4x2048_d2 h_S_ (ix2 b s)
      = rowmax (fun f : Fin 8192 => hh (ix3 b s f)) := by
  have h : S4x2048x8192.Reduces [2] S4x2048 := by decide
  rw [Host.reduce_eq_fold_single FloatOps.maximumf _ _ reducesTo_S4x2048x8192_S4x2048_d2 h h_S_]
  unfold rowmax
  have hf : (Host.absf (F := Ideal) (φ := .f32) hh ∘ h.lift (ix2 b s)) = fun f : Fin 8192 => max (hh (ix3 b s f)) (-(hh (ix3 b s f))) :=
    funext fun f => by
      show Host.absf (F := Ideal) (φ := .f32) hh (h.lift (ix2 b s) f) = _
      rw [lift_ix3 h b s f]; rfl
  rw [hf]
  rfl

/-! ## The weight operand -/

/-- The down-projection weight in straight-through form, read at (k, f): one scale for the whole matrix, from the
    sum of its absolute values. -/
theorem w_apply (x3 : (⟨S2048x8192, .f32⟩ : BufTy).Contents (Elt Ideal)) (k : Fin 2048) (f : Fin 8192) :
    val_main_v87 (F := Ideal) x3 (ix2 k f)
      = ste (tern (wscale (abssum x3)) (x3 (ix2 k f))) (x3 (ix2 k f)) := by
  simp only [val_main_v87_apply, val_main_v86_apply, val_main_v85_apply, val_main_v84_apply, val_main_v83_apply,
    val_main_call12_v4_apply, val_main_call12_v3_apply, val_main_call12_v2_apply, val_main_call12_v1_apply,
    val_main_call12_v0_apply, val_main_cst_31_apply, val_main_cst_30_apply, val_main_v82_apply, val_main_v81_apply,
    val_main_v80_apply, val_main_v79_apply, val_main_cst_29_apply, val_main_v78_apply, val_main_cst_28_apply,
    val_main_v77_apply, val_main_cst_27_apply, val_main_v76_apply, val_main_cst_26_apply, val_main_v75_apply,
    Ideal.addf_def, Ideal.subf_def, Ideal.mulf_def, Ideal.hostDivf_def, Ideal.maximumf_def, Ideal.minimumf_def,
    Ideal.hostUnary_roundeven_def, Ideal.ofBits_def]
  rfl

/-! ## The activation operand -/

/-- Row (b, s)'s scale is held at the row's one index (b, s, 0); both broadcasts of it along f read it there. -/
theorem idx67_ix3 (b : Fin 4) (s : Fin 2048) (f : Fin 8192) :
    idx_main_v67 (ix3 b s f) = ix3 b s (0 : Fin 1) :=
  funext fun a => Fin.ext (by match a with | ⟨0, _⟩ => rfl | ⟨1, _⟩ => rfl | ⟨2, _⟩ => rfl)

theorem idx71_ix3 (b : Fin 4) (s : Fin 2048) (f : Fin 8192) :
    idx_main_v71 (ix3 b s f) = ix3 b s (0 : Fin 1) :=
  funext fun a => Fin.ext (by match a with | ⟨0, _⟩ => rfl | ⟨1, _⟩ => rfl | ⟨2, _⟩ => rfl)

/-- … and the row maximum behind it is the reduction's entry (b, s). -/
theorem idx62_ix3 (b : Fin 4) (s : Fin 2048) :
    idx_main_v62 (ix3 b s (0 : Fin 1)) = ix2 b s :=
  funext fun a => Fin.ext (by match a with | ⟨0, _⟩ => rfl | ⟨1, _⟩ => rfl)

/-- The hidden activation in straight-through form, read at (b, s, f): row (b, s) quantised at its own scale,
    127 over the larger of the row's maximum absolute value and eps. -/
theorem a_apply (x0 : (⟨S4x2048x2048, .f32⟩ : BufTy).Contents (Elt Ideal)) (x1 x2 : (⟨S8192x2048, .f32⟩ : BufTy).Contents (Elt Ideal))
    (b : Fin 4) (s : Fin 2048) (f : Fin 8192) :
    val_main_v74 (F := Ideal) x0 x1 x2 (ix3 b s f)
      = ste (aq (fun f' : Fin 8192 => val_main_v59 (F := Ideal) x0 x1 x2 (ix3 b s f')) f) (val_main_v59 (F := Ideal) x0 x1 x2 (ix3 b s f)) := by
  rw [val_main_v74_apply, val_main_v73_apply, val_main_v72_apply, val_main_v71_apply, val_main_v70_apply,
    val_main_call10_v4_apply, val_main_call10_v3_apply, val_main_call10_v2_apply, val_main_call10_v1_apply,
    val_main_call10_v0_apply, val_main_cst_25_apply, val_main_cst_24_apply, val_main_v69_apply, val_main_v68_apply,
    val_main_v67_apply, idx67_ix3, idx71_ix3, val_main_v66_apply, val_main_v65_apply, val_main_cst_23_apply,
    val_main_v64_apply, val_main_v63_apply, val_main_cst_22_apply, val_main_v62_apply, idx62_ix3]
  unfold val_main_v61 val_main_v60
  -- from here on the hidden activation is an arbitrary array
  generalize val_main_v59 (F := Ideal) x0 x1 x2 = hh
  rw [rowmax_reduce hh b s]
  unfold ste aq int8 ascale rnd c127 cm128 eps
  rfl

/-! ## The result -/

/-- The contraction pairs (b, s, f) of the left operand … -/
theorem lidx88_ix3 (b : Fin 4) (s : Fin 2048) (k : Fin 2048) (f : Fin 8192) :
    lidx_main_v88 (ix3 b s k) f = ix3 b s f :=
  funext fun a => Fin.ext (by match a with | ⟨0, _⟩ => rfl | ⟨1, _⟩ => rfl | ⟨2, _⟩ => rfl)

/-- … with (k, f) of the right one. -/
theorem ridx88_ix2 (b : Fin 4) (s : Fin 2048) (k : Fin 2048) (f : Fin 8192) :
    ridx_main_v88 (ix3 b s k) f = ix2 k f :=
  funext fun a => Fin.ext (by match a with | ⟨0, _⟩ => rfl | ⟨1, _⟩ => rfl)

/-- The reference's result at (b, s, k): the inner product over f of the quantised hidden row (b, s) with the
    quantised weight row k, both in straight-through form. -/
theorem out_apply (x0 : (⟨S4x2048x2048, .f32⟩ : BufTy).Contents (Elt Ideal)) (x1 x2 : (⟨S8192x2048, .f32⟩ : BufTy).Contents (Elt Ideal))
    (x3 : (⟨S2048x8192, .f32⟩ : BufTy).Contents (Elt Ideal)) (b : Fin 4) (s : Fin 2048) (k : Fin 2048) :
    val_main_v88 (F := Ideal) x0 x1 x2 x3 (ix3 b s k)
      = dot (fun f : Fin 8192 => ste (aq (fun f' : Fin 8192 => val_main_v59 (F := Ideal) x0 x1 x2 (ix3 b s f')) f) (val_main_v59 (F := Ideal) x0 x1 x2 (ix3 b s f)))
            (fun f : Fin 8192 => ste (tern (wscale (abssum x3)) (x3 (ix2 k f))) (x3 (ix2 k f))) := by
  rw [val_main_v88_apply]
  unfold dot
  refine Finset.sum_congr rfl fun f _ => ?_
  rw [lidx88_ix3, ridx88_ix2, a_apply, w_apply]

end Cert.ReferenceIdeal.RefValue

end
-- ==== Proof.RefFinal.lean ====
/-
  The idealized reference's result is `GSte` of the four argument arrays: the second half of the program, read over an
  opaque hidden activation, with the first half's reading of that activation put in.  Entry (b, s, k) is the inner
  product over the 8192 hidden lanes of the hidden row (b, s), quantised per row in straight-through form, with row k
  of the down weights quantised in straight-through form; the hidden row is the straight-through hidden row of
  activation row (b, s).
-/
import proofs.«124648_j32409823216253_1_alg».proof.Proof.RefHidden
import proofs.«124648_j32409823216253_1_alg».proof.Proof.RefOut
import proofs.«124648_j32409823216253_1_alg».proof.Proof.Meet

noncomputable section

namespace Cert.ReferenceIdeal.RefValue

open Cert.ReferenceIdeal Cert.ReferenceIdeal.Read Cert.BitFFN Idealize.ShloMosaic Idealize.ShloMosaic.ValueIdx

theorem ref_value (x0 : (⟨S4x2048x2048, .f32⟩ : BufTy).Contents (Elt Ideal)) (x1 x2 : (⟨S8192x2048, .f32⟩ : BufTy).Contents (Elt Ideal))
    (x3 : (⟨S2048x8192, .f32⟩ : BufTy).Contents (Elt Ideal)) :
    val_main_v88 (F := Ideal) x0 x1 x2 x3 = GSte x0 x1 x2 x3 := by
  funext i
  obtain ⟨b, s, k, rfl⟩ : ∃ (b : Fin 4) (s : Fin 2048) (k : Fin 2048), i = ix3 b s k := ⟨i 0, i 1, i 2, eq_ix3 i⟩
  rw [out_apply]
  simp only [hidden_apply]
  rfl

end Cert.ReferenceIdeal.RefValue

end
-- ==== Proof.SpecReal.lean ====
/-
  Carrying "is a real number" through the block.

  At the extended reals the straight-through form `x + (a - x)` collapses to `a` exactly when `x` is a
  real number (`a` may be infinite).  Everything below is the bookkeeping that every intermediate value of
  the block is a real number when the inputs are: a clamp to a real interval is real whatever is clamped,
  a quotient of reals by a nonzero real is real, a finite sum of products of reals is real, a running
  maximum of reals started at `-∞` is never `+∞`.  With that, the block in straight-through form and the
  plain block are the same function of real inputs.
-/
import proofs.«124648_j32409823216253_1_alg».proof.Proof.Spec
import Mathlib.Data.Finset.Fold

noncomputable section

open scoped BigOperators

namespace Cert.BitFFN

open Idealize.ShloMosaic

/-! ## The one law -/

/-- For a real `x` and any extended real `a`, `x + (a - x) = a`. -/
theorem ste_coe (a : EReal) (x : ℝ) : ste a (x : EReal) = a := by
  unfold ste
  induction a using EReal.rec with
  | bot => simp
  | top => simp
  | coe r => norm_cast; ring

/-- The same, with the realness of `x` as a hypothesis. -/
theorem ste_real (a x : EReal) (hx : ∃ r : ℝ, x = (r : EReal)) : ste a x = a := by
  obtain ⟨r, rfl⟩ := hx
  exact ste_coe a r

/-! ## The literals as real numbers -/

theorem c127_eq : c127 = ((127 : ℝ) : EReal) := by
  simp [c127, Ideal.ofBits, Ideal.ieee, ← EReal.coe_mul]
  norm_num

theorem cm128_eq : cm128 = ((-128 : ℝ) : EReal) := by
  simp [cm128, Ideal.ofBits, Ideal.ieee, ← EReal.coe_mul]
  norm_num

theorem c1_eq : c1 = ((1 : ℝ) : EReal) := by
  simp [c1, Ideal.ofBits, Ideal.ieee, ← EReal.coe_mul]
  norm_num

theorem cm1_eq : cm1 = ((-1 : ℝ) : EReal) := by
  simp [cm1, Ideal.ofBits, Ideal.ieee, ← EReal.coe_mul]
  norm_num

theorem c0_eq : c0 = 0 := by
  simp [c0, Ideal.ofBits, Ideal.ieee]

theorem n24_eq : n24 = ((16777216 : ℝ) : EReal) := by
  simp [n24, Ideal.ofBits, Ideal.ieee, ← EReal.coe_mul]
  norm_num

theorem ninf_eq : ninf = ⊥ := by
  simp [ninf, Ideal.ofBits, Ideal.ieee]

/-- The clamp `eps` is the dyadic rational `10995116 / 2^40`. -/
theorem eps_val : eps = ((10995116 * ((2 : ℝ) ^ 40)⁻¹ : ℝ) : EReal) := by
  simp [eps, Ideal.ofBits, Ideal.ieee, ← EReal.coe_mul]

/-- The clamp `eps` is a positive real number. -/
theorem eps_eq : ∃ e : ℝ, 0 < e ∧ eps = (e : EReal) :=
  ⟨10995116 * ((2 : ℝ) ^ 40)⁻¹, by positivity, eps_val⟩

/-! ## Small facts about reals inside the extended reals -/

/-- An extended real between two reals is a real. -/
theorem real_of_between {z : EReal} {a b : ℝ} (ha : (a : EReal) ≤ z) (hb : z ≤ (b : EReal)) :
    ∃ r : ℝ, z = (r : EReal) :=
  ⟨z.toReal, (EReal.coe_toReal (ne_top_of_le_ne_top (EReal.coe_ne_top b) hb)
    (ne_bot_of_le_ne_bot (EReal.coe_ne_bot a) ha)).symm⟩

/-- A clamp to a real interval is real, whatever is clamped. -/
theorem clamp_real {a b : ℝ} (hab : a ≤ b) (w : EReal) :
    ∃ r : ℝ, min (b : EReal) (max (a : EReal) w) = (r : EReal) :=
  real_of_between (a := a) (b := b)
    (le_min (EReal.coe_le_coe_iff.mpr hab) (le_max_left _ _)) (min_le_left _ _)

/-- Division of a real by a nonzero real is the real quotient. -/
theorem div_coe_coe (x : ℝ) {s : ℝ} (hs : s ≠ 0) :
    Ideal.div (x : EReal) (s : EReal) = ((x / s : ℝ) : EReal) := by
  unfold Ideal.div
  rw [if_neg (by exact_mod_cast hs)]
  rfl

/-- The maximum of two reals, inside the extended reals. -/
theorem max_coe_coe (a b : ℝ) : max (a : EReal) (b : EReal) = ((max a b : ℝ) : EReal) :=
  (EReal.coe_strictMono.monotone.map_max).symm

/-- The absolute value `max v (-v)` of a real is real. -/
theorem abs_real {v : EReal} (hv : ∃ r : ℝ, v = (r : EReal)) : ∃ r : ℝ, max v (-v) = (r : EReal) := by
  obtain ⟨r, rfl⟩ := hv
  exact ⟨max r (-r), by rw [← EReal.coe_neg, max_coe_coe]⟩

/-- A finite sum of reals is real. -/
theorem sum_real {ι : Type} (s : Finset ι) (f : ι → EReal) (h : ∀ i, ∃ r : ℝ, f i = (r : EReal)) :
    ∃ r : ℝ, ∑ i ∈ s, f i = (r : EReal) := by
  classical
  refine Finset.induction_on s ⟨0, by simp⟩ ?_
  intro a s ha ih
  obtain ⟨r, hr⟩ := ih
  obtain ⟨q, hq⟩ := h a
  exact ⟨q + r, by rw [Finset.sum_insert ha, hr, hq, EReal.coe_add]⟩

/-- The maximum of anything not `+∞` with `eps` is a positive real. -/
theorem max_eps_real (z : EReal) (hz : z ≠ ⊤) : ∃ m : ℝ, 0 < m ∧ max z eps = (m : EReal) := by
  obtain ⟨e, he, hee⟩ := eps_eq
  have h1 : (e : EReal) ≤ max z eps := hee ▸ le_max_right z eps
  have h2 : max z eps ≠ ⊤ := by
    rcases max_choice z eps with h | h <;> rw [h]
    · exact hz
    · rw [hee]; exact EReal.coe_ne_top e
  have hm : (((max z eps).toReal : ℝ) : EReal) = max z eps :=
    EReal.coe_toReal h2 (ne_bot_of_le_ne_bot (EReal.coe_ne_bot e) h1)
  refine ⟨(max z eps).toReal, ?_, hm.symm⟩
  have : e ≤ (max z eps).toReal := EReal.coe_le_coe_iff.mp (hm ▸ h1)
  exact lt_of_lt_of_le he this

/-! ## One entry -/

/-- A quantised weight at a nonzero real scale is real: the clamp to [-1, 1] makes the numerator real. -/
theorem tern_real {s : ℝ} (hs : s ≠ 0) (v : EReal) : ∃ r : ℝ, tern (s : EReal) v = (r : EReal) := by
  unfold tern
  rw [c1_eq, cm1_eq]
  obtain ⟨r, hr⟩ := clamp_real (a := -1) (b := 1) (by norm_num) (rnd (v * (s : EReal)))
  rw [hr, div_coe_coe r hs]
  exact ⟨_, rfl⟩

/-- A quantised activation at a nonzero real scale is real: the clamp to [-128, 127] makes the numerator real. -/
theorem int8_real {s : ℝ} (hs : s ≠ 0) (v : EReal) : ∃ r : ℝ, int8 (s : EReal) v = (r : EReal) := by
  unfold int8
  rw [c127_eq, cm128_eq]
  obtain ⟨r, hr⟩ := clamp_real (a := -128) (b := 127) (by norm_num) (rnd (v * (s : EReal)))
  rw [hr, div_coe_coe r hs]
  exact ⟨_, rfl⟩

/-- A row's scale is a nonzero real as soon as the row's maximum is not `+∞` (`-∞` is allowed). -/
theorem ascale_real (rm : EReal) (h : rm ≠ ⊤) : ∃ s : ℝ, s ≠ 0 ∧ ascale rm = (s : EReal) := by
  unfold ascale
  obtain ⟨m, hm, hme⟩ := max_eps_real rm h
  rw [hme, c127_eq, div_coe_coe 127 hm.ne']
  exact ⟨127 / m, div_ne_zero (by norm_num) hm.ne', rfl⟩

/-- A weight matrix's scale is a nonzero real when the sum of absolute values is real. -/
theorem wscale_real (t : ℝ) : ∃ s : ℝ, s ≠ 0 ∧ wscale (t : EReal) = (s : EReal) := by
  unfold wscale
  rw [n24_eq, div_coe_coe t (by norm_num : (16777216 : ℝ) ≠ 0)]
  obtain ⟨m, hm, hme⟩ := max_eps_real ((t / 16777216 : ℝ) : EReal) (EReal.coe_ne_top _)
  rw [hme, c1_eq, div_coe_coe 1 hm.ne']
  exact ⟨1 / m, one_div_ne_zero hm.ne', rfl⟩

/-! ## One row -/

/-- A running maximum of absolute values of reals, started at `-∞`, is never `+∞`. -/
theorem rowmax_ne_top {n : Nat} (row : Fin n → EReal) (h : ∀ d, ∃ r : ℝ, row d = (r : EReal)) :
    rowmax row ≠ ⊤ := by
  unfold rowmax
  rw [ninf_eq]
  refine ne_of_lt ((Finset.fold_max_lt ⊤).mpr ⟨bot_lt_top, fun d _ => ?_⟩)
  obtain ⟨r, hr⟩ := abs_real (h d)
  rw [hr]
  exact EReal.coe_lt_top r

theorem aq_real {n : Nat} (row : Fin n → EReal) (h : ∀ d, ∃ r : ℝ, row d = (r : EReal)) (d : Fin n) :
    ∃ r : ℝ, aq row d = (r : EReal) := by
  unfold aq
  obtain ⟨s, hs, hse⟩ := ascale_real (rowmax row) (rowmax_ne_top row h)
  rw [hse]
  exact int8_real hs (row d)

theorem dot_real {n : Nat} (a b : Fin n → EReal) (ha : ∀ d, ∃ r : ℝ, a d = (r : EReal))
    (hb : ∀ d, ∃ r : ℝ, b d = (r : EReal)) : ∃ r : ℝ, dot a b = (r : EReal) := by
  unfold dot
  refine sum_real _ _ fun d => ?_
  obtain ⟨p, hp⟩ := ha d
  obtain ⟨q, hq⟩ := hb d
  exact ⟨p * q, by rw [hp, hq, EReal.coe_mul]⟩

/-- Every entry of the hidden row is real when the input row and the quantised weights are. -/
theorem hRow_real {n m : Nat} (xr : Fin n → EReal) (wgq wuq : Fin m → Fin n → EReal)
    (hx : ∀ d, ∃ r : ℝ, xr d = (r : EReal)) (hg : ∀ f d, ∃ r : ℝ, wgq f d = (r : EReal))
    (hu : ∀ f d, ∃ r : ℝ, wuq f d = (r : EReal)) (f : Fin m) :
    ∃ r : ℝ, hRow xr wgq wuq f = (r : EReal) := by
  unfold hRow
  obtain ⟨g, hg'⟩ := dot_real (aq xr) (wgq f) (aq_real xr hx) (hg f)
  obtain ⟨u, hu'⟩ := dot_real (aq xr) (wuq f) (aq_real xr hx) (hu f)
  rw [hg', hu', c0_eq, ← EReal.coe_zero, max_coe_coe, ← EReal.coe_mul]
  exact ⟨_, rfl⟩

theorem abssum_real {ι : Type} [Fintype ι] (w : ι → EReal) (hw : ∀ i, ∃ r : ℝ, w i = (r : EReal)) :
    ∃ t : ℝ, abssum w = (t : EReal) := by
  unfold abssum
  obtain ⟨t, ht⟩ := sum_real Finset.univ (fun i => max (w i) (-(w i))) fun i => abs_real (hw i)
  rw [ht, c0_eq, zero_add]
  exact ⟨t, rfl⟩

theorem wscale_abssum_real {ι : Type} [Fintype ι] (w : ι → EReal) (hw : ∀ i, ∃ r : ℝ, w i = (r : EReal)) :
    ∃ r : ℝ, r ≠ 0 ∧ wscale (abssum w) = (r : EReal) := by
  obtain ⟨t, ht⟩ := abssum_real w hw
  rw [ht]
  exact wscale_real t

/-! ## The block -/

/-- On a real input row and real weights the hidden row in straight-through form is the plain hidden row
    against the quantised weights: each `v + (q - v)` is `q`. -/
theorem hRowSte_eq_hRow {n m : Nat} (sg su : EReal) (wg wu : Fin m → Fin n → EReal) (xr : Fin n → EReal)
    (hwg : ∀ f d, ∃ r : ℝ, wg f d = (r : EReal)) (hwu : ∀ f d, ∃ r : ℝ, wu f d = (r : EReal))
    (hx : ∀ d, ∃ r : ℝ, xr d = (r : EReal)) :
    hRowSte sg su wg wu xr = hRow xr (fun f d => tern sg (wg f d)) (fun f d => tern su (wu f d)) := by
  funext f
  have hA : (fun d => ste (aq xr d) (xr d)) = aq xr := funext fun d => ste_real _ _ (hx d)
  have hG : (fun d => ste (tern sg (wg f d)) (wg f d)) = fun d => tern sg (wg f d) :=
    funext fun d => ste_real _ _ (hwg f d)
  have hU : (fun d => ste (tern su (wu f d)) (wu f d)) = fun d => tern su (wu f d) :=
    funext fun d => ste_real _ _ (hwu f d)
  unfold hRowSte hRow
  rw [hA, hG, hU]

/-- The block in straight-through form is the plain block, on real inputs at nonzero real scales. -/
theorem outRowSte_eq_outRow {n m p : Nat} {sg su sd : EReal}
    (hsg : ∃ r : ℝ, r ≠ 0 ∧ sg = (r : EReal)) (hsu : ∃ r : ℝ, r ≠ 0 ∧ su = (r : EReal)) (hsd : ∃ r : ℝ, r ≠ 0 ∧ sd = (r : EReal))
    (wg wu : Fin m → Fin n → EReal) (wd : Fin p → Fin m → EReal) (xr : Fin n → EReal)
    (hwg : ∀ f d, ∃ r : ℝ, wg f d = (r : EReal)) (hwu : ∀ f d, ∃ r : ℝ, wu f d = (r : EReal)) (hwd : ∀ k f, ∃ r : ℝ, wd k f = (r : EReal))
    (hx : ∀ d, ∃ r : ℝ, xr d = (r : EReal)) (k : Fin p) :
    outRowSte sg su sd wg wu wd xr k = outRow sg su sd wg wu wd xr k := by
  obtain ⟨rg, hrg, rfl⟩ := hsg
  obtain ⟨ru, hru, rfl⟩ := hsu
  have hH := hRowSte_eq_hRow (rg : EReal) (ru : EReal) wg wu xr hwg hwu hx
  have hHr : ∀ f, ∃ r : ℝ, hRowSte (rg : EReal) (ru : EReal) wg wu xr f = (r : EReal) := by
    intro f
    rw [hH]
    exact hRow_real xr _ _ hx (fun f d => tern_real hrg (wg f d)) (fun f d => tern_real hru (wu f d)) f
  have hA : (fun f => ste (aq (hRowSte (rg : EReal) (ru : EReal) wg wu xr) f) (hRowSte (rg : EReal) (ru : EReal) wg wu xr f))
      = aq (hRowSte (rg : EReal) (ru : EReal) wg wu xr) := funext fun f => ste_real _ _ (hHr f)
  have hD : (fun f => ste (tern sd (wd k f)) (wd k f)) = fun f => tern sd (wd k f) :=
    funext fun f => ste_real _ _ (hwd k f)
  unfold outRowSte outRow oRow
  rw [hA, hD, hH]

end Cert.BitFFN

end
-- ==== Proof.MeetReal.lean ====
/-
  On arrays of real numbers the straight-through form of the block is the plain form: `GSte = G`.
  Every straight-through term `v + (q - v)` has `v` an input entry, a weight entry or a hidden entry; inputs and weights
  are real by hypothesis, the three scales are nonzero reals because each is 1 / max(·, eps) of a real sum, and a hidden
  entry is a finite sum of products of reals.
-/
import proofs.«124648_j32409823216253_1_alg».proof.Proof.Meet
import proofs.«124648_j32409823216253_1_alg».proof.Proof.SpecReal

noncomputable section

namespace Cert.BitFFN

open Idealize.ShloMosaic Idealize.ShloMosaic.ValueIdx

theorem GSte_eq_G (a0 : (⟨3, ![4, 2048, 2048]⟩ : Shape).Idx → EReal) (a1 a2 : (⟨2, ![8192, 2048]⟩ : Shape).Idx → EReal)
    (a3 : (⟨2, ![2048, 8192]⟩ : Shape).Idx → EReal)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) :
    GSte a0 a1 a2 a3 = G a0 a1 a2 a3 := by
  funext i
  unfold GSte G
  exact outRowSte_eq_outRow (wscale_abssum_real a1 h1) (wscale_abssum_real a2 h2) (wscale_abssum_real a3 h3)
    _ _ _ _ (fun f d => h1 _) (fun f d => h2 _) (fun k f => h3 _) (fun d => h0 _) _

end Cert.BitFFN

end
-- ==== Proof.FiniteInputs.lean ====
/-
  From the precondition to "every input entry is a real number".

  The precondition is the conjunction, over the four float arguments x, of "for every index i, |x i| < +∞",
  each read as a one-bit word and folded by "and".  At the extended reals |x| is max x (-x) and +∞ is ⊤, so
  the test fails at ⊤ and at ⊥ and holds exactly at the real numbers.
-/
import proofs.«124648_j32409823216253_1_alg».proof.Defs
import proofs.«124648_j32409823216253_1_alg».proof.Proof.Gen.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic Idealize.SL.Sem

/-- The scalar shape has exactly one index. -/
instance subsingleton_scalar_idx : Subsingleton Cert.Pre_finite_inputs.S_.Idx :=
  ⟨fun a b => funext fun d => d.elim0⟩

/-- The f32 word 0x7F800000 denotes +∞. -/
theorem inf_eq_top : Ideal.ofBits .f32 0x7F800000#32 = (⊤ : EReal) := by
  simp [Ideal.ofBits, Ideal.ieee]

/-- A one-bit word made from a truth value is 1 exactly when the value is true. -/
theorem ofBool_eq_one {b : Bool} : BitVec.ofBool b = 1#1 ↔ b = true := by cases b <;> decide

/-- An extended real whose absolute value max x (-x) lies strictly below ⊤ is a real number:
    at ⊤ the maximum is ⊤, at ⊥ it is -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The element test |x i| < +∞, as the one-bit word the comparison yields, says that x i is real. -/
theorem real_of_test {s : Shape} (hb : Cert.Pre_finite_inputs.S_.BroadcastsInDim s (![] : Fin 0 → Fin s.rank))
    (x : FVec Ideal s .f32) (i : s.Idx)
    (h : cmpf .olt (Host.absf x)
          (broadcastInDim s ![] hb (constant (F := Ideal) Cert.Pre_finite_inputs.S_ .f32 0x7F800000#32)) i = 1#1) :
    ∃ r : ℝ, x i = (r : EReal) := by
  have h' : BitVec.ofBool (decide (max (x i) (-(x i)) < Ideal.ofBits .f32 0x7F800000#32)) = 1#1 := h
  rw [ofBool_eq_one, decide_eq_true_eq, inf_eq_top] at h'
  exact real_of_abs_lt_top (x i) h'

/-- The core: if the printed predicate of four arrays is the all-ones word, every entry of each array is real.
    The predicate is ((all₀ ∧ all₁) ∧ all₂) ∧ all₃; each conjunct is a fold by "and" over every index of the
    element test, so each element test is 1. -/
theorem real_of_fn [Cert.Pre_finite_inputs.Facts]
    (x0 : FVec Ideal Cert.Pre_finite_inputs.S4x2048x2048 .f32)
    (x1 x2 : FVec Ideal Cert.Pre_finite_inputs.S8192x2048 .f32)
    (x3 : FVec Ideal Cert.Pre_finite_inputs.S2048x8192 .f32)
    (h : Cert.Pre_finite_inputs.fn (F := Ideal) x0 x1 x2 x3 = (fun _ => 1#1)) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_test _ x0 i (Host.reduce_andi_all _ _ _ _ _ h0' i),
    fun i => real_of_test _ x1 i (Host.reduce_andi_all _ _ _ _ _ h1 i),
    fun i => real_of_test _ x2 i (Host.reduce_andi_all _ _ _ _ _ h2 i),
    fun i => real_of_test _ x3 i (Host.reduce_andi_all _ _ _ _ _ h3 i)⟩

/-- At every device, the precondition makes every entry of the four argument arrays a real number. -/
theorem real_of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  real_of_fn _ _ _ _ (hpre c)

end Cert.Proof.Finite
-- ==== Proof.lean ====
/-
  The certificate of a BitNet-style gated feed-forward block: a program of five kernels against a reference of
  whole-array operations.

  Both compute, on activations x [4, 2048, 2048] and weights w_gate, w_up [8192, 2048], w_down [2048, 8192],
      out = bitlinear(relu(bitlinear(x, w_gate)) · bitlinear(x, w_up), w_down),
  where bitlinear quantises each activation row to int8 steps at the row's own scale 127 / max(max|x|, eps), each weight
  matrix to {-1, 0, 1} steps at the matrix's scale 1 / max(mean|w|, eps), and multiplies.  The kernel program quantises
  the three weight matrices in three kernels (the scales computed on the host), computes the hidden array in a fourth,
  row block by column block, and the output in a fifth; it uses the quantised values directly.  The reference enters every
  quantised value q of an entry v as v + (q - v).  On the extended reals v + (q - v) = q exactly when v is a real number,
  so the two agree where every input is finite: inputs and weights are real by the precondition, the scales are nonzero
  reals, and a hidden entry is a finite sum of products of reals.

  The three frames are the generated ones (the reference's is its generated run with the result dropped); the
  idealization rewrote nothing, so `preserves` is trivial; `algebraic` puts the pieces together: the kernel's run with its
  result named (KRun) and read back through the region boundaries (KChain, KTern, KHidden, KOut, KFinal) over the
  bodies' arithmetic at an index (PayTern, PayHidden, PayOut) is `G` of the arguments; the reference's generated run,
  read at an index (RefHidden, RefOut, RefFinal), is `GSte` of the arguments; and `GSte = G` on real arrays (SpecReal,
  MeetReal), the inputs being real by the precondition (FiniteInputs).
-/
import proofs.«124648_j32409823216253_1_alg».proof.Defs
import proofs.«124648_j32409823216253_1_alg».proof.Proof.Gen.Kernel
import proofs.«124648_j32409823216253_1_alg».proof.Proof.Gen.Kernel.Skeleton
import proofs.«124648_j32409823216253_1_alg».proof.Proof.Gen.Kernel.Launch
import proofs.«124648_j32409823216253_1_alg».proof.Proof.Gen.Kernel.Points
import proofs.«124648_j32409823216253_1_alg».proof.Proof.Gen.Kernel.Frame
import proofs.«124648_j32409823216253_1_alg».proof.Proof.Gen.KernelIdeal
import proofs.«124648_j32409823216253_1_alg».proof.Proof.Gen.KernelIdeal.Skeleton
import proofs.«124648_j32409823216253_1_alg».proof.Proof.Gen.KernelIdeal.Launch
import proofs.«124648_j32409823216253_1_alg».proof.Proof.Gen.KernelIdeal.Points
import proofs.«124648_j32409823216253_1_alg».proof.Proof.Gen.KernelIdeal.Frame
import proofs.«124648_j32409823216253_1_alg».proof.Proof.Gen.ReferenceIdeal
import proofs.«124648_j32409823216253_1_alg».proof.Proof.Gen.ReferenceIdeal.Run
import proofs.«124648_j32409823216253_1_alg».proof.Proof.Gen.ReferenceIdeal.Read
import proofs.«124648_j32409823216253_1_alg».proof.Proof.Gen.Pre_finite_inputs
import proofs.«124648_j32409823216253_1_alg».proof.Proof.KRun
import proofs.«124648_j32409823216253_1_alg».proof.Proof.KFinal
import proofs.«124648_j32409823216253_1_alg».proof.Proof.PayTern
import proofs.«124648_j32409823216253_1_alg».proof.Proof.PayHidden
import proofs.«124648_j32409823216253_1_alg».proof.Proof.PayOut
import proofs.«124648_j32409823216253_1_alg».proof.Proof.RefFinal
import proofs.«124648_j32409823216253_1_alg».proof.Proof.MeetReal
import proofs.«124648_j32409823216253_1_alg».proof.Proof.FiniteInputs
import Idealize.ShloMosaic.Adequacy
import Idealize.ShloMosaic.Init

noncomputable section

namespace Cert.Proof

open Idealize.ShloMosaic Idealize.ShloMosaic.TcCoe Idealize.SL.Sem Cert.BitFFN

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference has no kernel: its frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- At `Ideal`, from memories agreeing on the arguments, both programs end with the result buffer at `G` of the
    kernel side's argument arrays. -/
theorem algebraic [Cert.KernelIdeal.Facts] [Cert.ReferenceIdeal.Facts] [hPre_finite_inputs : Cert.Pre_finite_inputs.Facts] :
    Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.KValue.run_result (F := Ideal) m ρ)
    exact Cert.KernelIdeal.KValue.kernel_value m ρ c Cert.KernelIdeal.Pay.pay0 Cert.KernelIdeal.Pay.pay1
      Cert.KernelIdeal.Pay.pay2 Cert.KernelIdeal.Pay.pay3 Cert.KernelIdeal.Pay.pay4
  · refine (θ_run Cert.ReferenceIdeal.defs _ _).mono (fun r h c => ⟨(h c).1.trans ?_, (h c).2⟩)
      (Cert.ReferenceIdeal.Value.run (F := Ideal) m' ρ')
    obtain ⟨h0, h1, h2, h3⟩ := Cert.Proof.Finite.real_of_pre (hPre_finite_inputs := hPre_finite_inputs) m hpre c
    rw [Cert.ReferenceIdeal.Read.val_main_v88_eq, (hagree c).1, (hagree c).2.1, (hagree c).2.2.1, (hagree c).2.2.2,
      Cert.ReferenceIdeal.RefValue.ref_value]
    exact GSte_eq_G _ _ _ _ h0 h1 h2 h3

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
